-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8x8192x512 : Shape := ⟨3, ![8, 8192, 512]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8x8192x512 : S_.BroadcastsInDim S8x8192x512 (![] : Fin 0 → Fin S8x8192x512.rank)
  reducesTo_S8x8192x512_S_d0_1_2 : S8x8192x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S512x512 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  main_v73

def fn_part3 {F : FTy → Type} [FloatOps F] (main_arg11 : FVec F S512x512 .f32) (main_arg12 : FVec F S512x512 .f32) (main_arg13 : FVec F S512 .f32) (main_arg14 : FVec F S512x512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_v63 main_v67

def fn_part2 {F : FTy → Type} [FloatOps F] (main_arg7 : FVec F S512 .f32) (main_arg8 : FVec F S512x512 .f32) (main_arg9 : FVec F S512x512 .f32) (main_arg10 : FVec F S512 .f32) (main_arg11 : FVec F S512x512 .f32) (main_arg12 : FVec F S512x512 .f32) (main_arg13 : FVec F S512 .f32) (main_arg14 : FVec F S512x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_v48 main_v49 main_v50

def fn_part1 {F : FTy → Type} [FloatOps F] (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) (main_arg11 : FVec F S512x512 .f32) (main_arg12 : FVec F S512x512 .f32) (main_arg13 : FVec F S512 .f32) (main_arg14 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x512 .f32) (main_arg1 : FVec F S8x8192x512 .f32) (main_arg2 : FVec F S8x8192x512 .f32) (main_arg3 : FVec F S512x512 .f32) (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) (main_arg11 : FVec F S512x512 .f32) (main_arg12 : FVec F S512x512 .f32) (main_arg13 : FVec F S512 .f32) (main_arg14 : FVec F S512x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8x8192x512 .f32 := Host.absf main_arg1
  let main_cst_0 : FVec F S_ .f32 := constant S_ .f32 0x7F800000#32
  let main_v5 : FVec F S8x8192x512 .f32 := broadcastInDim S8x8192x512 ![] bcast_S_S8x8192x512 main_cst_0
  let main_v6 : IVec S8x8192x512 1 := cmpf .olt main_v4 main_v5
  let main_c_1 : IVec S_ 1 := constantI S_ 1 1#1
  let main_v7 : IVec S_ 1 := (fun x v => Host.reduce IntOp.andi x v reducesTo_S8x8192x512_S_d0_1_2 h_S_) main_v6 main_c_1
  let main_v8 : IVec S_ 1 := andi main_v3 main_v7
  let main_v9 : FVec F S8x8192x512 .f32 := Host.absf main_arg2
  let main_cst_2 : FVec F S_ .f32 := constant S_ .f32 0x7F800000#32
  let main_v10 : FVec F S8x8192x512 .f32 := broadcastInDim S8x8192x512 ![] bcast_S_S8x8192x512 main_cst_2
  let main_v11 : IVec S8x8192x512 1 := cmpf .olt main_v9 main_v10
  let main_c_3 : IVec S_ 1 := constantI S_ 1 1#1
  let main_v12 : IVec S_ 1 := (fun x v => Host.reduce IntOp.andi x v reducesTo_S8x8192x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x512 : Shape := ⟨2, ![8192, 512]⟩
abbrev S8x8192x512 : Shape := ⟨3, ![8, 8192, 512]⟩
abbrev S512x512 : Shape := ⟨2, ![512, 512]⟩
abbrev S512 : Shape := ⟨1, ![512]⟩
abbrev S1x512 : Shape := ⟨2, ![1, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 29
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8x8192x512, .f32⟩
  | .hbm, ⟨2, _⟩ => ⟨S8x8192x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S512x512, .bf16⟩
  | .hbm, ⟨20, _⟩ => ⟨S512x512, .bf16⟩
  | .hbm, ⟨21, _⟩ => ⟨S512x512, .bf16⟩
  | .hbm, ⟨22, _⟩ => ⟨S512x512, .bf16⟩
  | .hbm, ⟨23, _⟩ => ⟨S512x512, .bf16⟩
  | .hbm, ⟨24, _⟩ => ⟨S512x512, .bf16⟩
  | .hbm, ⟨25, _⟩ => ⟨S512x512, .bf16⟩
  | .hbm, ⟨26, _⟩ => ⟨S512x512, .bf16⟩
  | .hbm, ⟨27, _⟩ => ⟨S8192x512, .f32⟩
  | .hbm, ⟨28, _⟩ => ⟨S8192x512, .f32⟩
  | .local _ .vmem, ⟨0, _⟩ => ⟨S256x512, .f32⟩
  | .local _ .vmem, ⟨1, _⟩ => ⟨S256x512, .f32⟩
  | .local _ .vmem, ⟨2, _⟩ => ⟨S8x256x512, .f32⟩
  | .local _ .vmem, ⟨3, _⟩ => ⟨S8x256x512, .f32⟩
  | .local _ .vmem, ⟨4, _⟩ => ⟨S8x256x512, .f32⟩
  | .local _ .vmem, ⟨5, _⟩ => ⟨S8x256x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S1x512, .f32⟩
  | .local _ .vmem, ⟨11, _⟩ => ⟨S512x512, .bf16⟩
  | .local _ .vmem, ⟨12, _⟩ => ⟨S512x512, .bf16⟩
  | .local _ .vmem, ⟨13, _⟩ => ⟨S1x512, .f32⟩
  | .local _ .vmem, ⟨14, _⟩ => ⟨S512x512, .bf16⟩
  | .local _ .vmem, ⟨15, _⟩ => ⟨S512x512, .bf16⟩
  | .local _ .vmem, ⟨16, _⟩ => ⟨S1x512, .f32⟩
  | .local _ .vmem, ⟨17, _⟩ => ⟨S512x512, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S512_S1x512 : S512.ShapeCasts S1x512
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S8x256x512_S1x256x512_0_0_0 : ∀ a, (![0, 0, 0] : Fin 3 → Nat) a + S1x256x512.size a ≤ S8x256x512.size a
  h_S1x256x512 : 0 < S1x256x512.numel
  shapeCasts_S1x256x512_S256x512 : S1x256x512.ShapeCasts S256x512
  inb_S8x256x512_S1x256x512_1_0_0 : ∀ a, (![1, 0, 0] : Fin 3 → Nat) a + S1x256x512.size a ≤ S8x256x512.size a
  inb_S8x256x512_S1x256x512_2_0_0 : ∀ a, (![2, 0, 0] : Fin 3 → Nat) a + S1x256x512.size a ≤ S8x256x512.size a
  inb_S8x256x512_S1x256x512_3_0_0 : ∀ a, (![3, 0, 0] : Fin 3 → Nat) a + S1x256x512.size a ≤ S8x256x512.size a
  inb_S8x256x512_S1x256x512_4_0_0 : ∀ a, (![4, 0, 0] : Fin 3 → Nat) a + S1x256x512.size a ≤ S8x256x512.size a
  inb_S8x256x512_S1x256x512_5_0_0 : ∀ a, (![5, 0, 0] : Fin 3 → Nat) a + S1x256x512.size a ≤ S8x256x512.size a
  inb_S8x256x512_S1x256x512_6_0_0 : ∀ a, (![6, 0, 0] : Fin 3 → Nat) a + S1x256x512.size a ≤ S8x256x512.size a
  inb_S8x256x512_S1x256x512_7_0_0 : ∀ a, (![7, 0, 0] : Fin 3 → Nat) a + S1x256x512.size a ≤ S8x256x512.size a
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  dot_S256x512_S512x512_S256x512_1_1_0_0_n_n_wf : DotDims.WF S256x512 S512x512 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S8x8192x512.size a
  hwx0_1 : ∀ i : grid0.Coords, EltTy.bits .f32 = 32 ∨ (Rect.block (s := S8x8192x512) S8x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x512.size a ≤ S8x8192x512.size a
  hwx0_2 : ∀ i : grid0.Coords, EltTy.bits .f32 = 32 ∨ (Rect.block (s := S8x8192x512) S8x256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .bf16 = 32 ∨ (Rect.block (s := S512x512) S512x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .bf16 = 32 ∨ (Rect.block (s := S512x512) S512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S512x512.size a
  hwx0_14 : ∀ i : grid0.Coords, EltTy.bits .bf16 = 32 ∨ (Rect.block (s := S512x512) S512x512.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x512.size a ≤ S8192x512.size a
  hwx0_15 : ∀ i : grid0.Coords, EltTy.bits .f32 = 32 ∨ (Rect.block (s := S8192x512) S256x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x512.size a ≤ S8192x512.size a
  hwx0_16 : ∀ i : grid0.Coords, EltTy.bits .f32 = 32 ∨ (Rect.block (s := S8192x512) S256x512.size (cc0_transform_16 i) (hinb0_16 i)).WholeWords (EltTy.packing .f32)

variable [Facts₀]

def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v3) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v11) S512x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v12_0) S256x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v12_1) S256x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x512 : Shape := ⟨2, ![8192, 512]⟩
abbrev S8x8192x512 : Shape := ⟨3, ![8, 8192, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S1x8192x512 : Shape := ⟨3, ![1, 8192, 512]⟩

abbrev nBuf : Space → Nat
  | .hbm => 82
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8x8192x512, .f32⟩
  | .hbm, ⟨2, _⟩ => ⟨S8x8192x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S_, .f32⟩
  | .hbm, ⟨16, _⟩ => ⟨S8192x512, .f32⟩
  | .hbm, ⟨17, _⟩ => ⟨S512x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S512x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S512x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S512x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S512x512, .f32⟩
  | .hbm, ⟨50, _⟩ => ⟨S8192x512, .f32⟩
  | .hbm, ⟨51, _⟩ => ⟨S1x512, .f32⟩
  | .hbm, ⟨52, _⟩ => ⟨S8192x512, .f32⟩
  | .hbm, ⟨53, _⟩ => ⟨S8192x512, .f32⟩
  | .hbm, ⟨54, _⟩ => ⟨S512x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S512x512, .f32⟩
  | .hbm, ⟨59, _⟩ => ⟨S8192x512, .f32⟩
  | .hbm, ⟨60, _⟩ => ⟨S1x512, .f32⟩
  | .hbm, ⟨61, _⟩ => ⟨S8192x512, .f32⟩
  | .hbm, ⟨62, _⟩ => ⟨S8192x512, .f32⟩
  | .hbm, ⟨63, _⟩ => ⟨S1x8192x512, .f32⟩
  | .hbm, ⟨64, _⟩ => ⟨S8x8192x512, .f32⟩
  | .hbm, ⟨65, _⟩ => ⟨S8x8192x512, .f32⟩
  | .hbm, ⟨66, _⟩ => ⟨S8x8192x512, .f32⟩
  | .hbm, ⟨67, _⟩ => ⟨S8x8192x512, .f32⟩
  | .hbm, ⟨68, _⟩ => ⟨S8x8192x512, .f32⟩
  | .hbm, ⟨69, _⟩ => ⟨S_, .f32⟩
  | .hbm, ⟨70, _⟩ => ⟨S8x8192x512, .f32⟩
  | .hbm, ⟨71, _⟩ => ⟨S8x8192x512, .f32⟩
  | .hbm, ⟨72, _⟩ => ⟨S_, .f32⟩
  | .hbm, ⟨73, _⟩ => ⟨S8x8192x512, .f32⟩
  | .hbm, ⟨74, _⟩ => ⟨S8x8192x512, .f32⟩
  | .hbm, ⟨75, _⟩ => ⟨S8192x512, .f32⟩
  | .hbm, ⟨76, _⟩ => ⟨S8x8192x512, .f32⟩
  | .hbm, ⟨77, _⟩ => ⟨S_, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]

class Facts₀ : Prop where
  reducesTo_S8x8192x512_S8192x512_d0 : S8x8192x512.ReducesTo [0] S8192x512
  h_S_ : 0 < S_.numel
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S8192x512_S1x8192x512_1_2 : S8192x512.BroadcastsInDim S1x8192x512 (![1, 2] : Fin 2 → Fin S1x8192x512.rank)
  bcast_S1x8192x512_S8x8192x512_0_1_2 : S1x8192x512.BroadcastsInDim S8x8192x512 (![0, 1, 2] : Fin 3 → Fin S8x8192x512.rank)
  bcast_S_S8x8192x512 : S_.BroadcastsInDim S8x8192x512 (![] : Fin 0 → Fin S8x8192x512.rank)
  dot_S8192x512_S512x512_S8192x512_1_0_0_1_n_n_wf : DotDims.WF S8192x512 S512x512 S8192x512 [1] [0] [0] [1] [] []
  dot_S8x8192x512_S512x512_S8x8192x512_2_1_01_0_n_n_wf : DotDims.WF S8x8192x512 S512x512 S8x8192x512 [2] [1] [0, 1] [0] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8x8192x512_S512x512_S8x8192x512_2_1_01_0_n_n : DotDims S8x8192x512 S512x512 S8x8192x512 where
  lhsContracting := [2]
  rhsContracting := [1]
  lhsNonContracting := [0, 1]
  rhsNonContracting := [0]
  lhsBatch := []
  rhsBatch := []
  wf := dot_S8x8192x512_S512x512_S8x8192x512_2_1_01_0_n_n_wf

class Facts : Prop extends Facts₀ where

variable [Facts]
-- ==== Proof.KernelReads.lean ====
/-
  The windows' blocks at a grid point, read off the argument arrays.

  The grid has 32 points. At point `t` the input's block is rows `256 t … 256 t + 255`, each children array's block is the
  same rows of all eight children, and every weight or bias block is the whole array (the same at every point).
  Before the region the host rounds each weight matrix to the product's format — the identity on the extended reals —
  and recasts each bias vector `[512]` as a row `[1, 512]`.
-/
import proofs.«137281_j22247930593470_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Reads

open Cert.KernelIdeal Cert.KernelIdeal.Gen Idealize.ShloMosaic Idealize.ShloMosaic.ValueIdx Idealize.ShloMosaic.TcCoe
open Idealize.SL.Sem

variable (m : (ℓ : Loc nD τ sig) → Buf (Elt Ideal) ℓ)

/-! ## Where the blocks sit -/

/-- The blocks that move with the grid point: block `t` along the batch axis, decided over the 32 points. -/
theorem idx_facts : ∀ t : Fin cfg0.N,
    (win0_0.index t (0 : Fin 2) = t.val ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

/-- The weight and bias blocks stay at the origin, decided over the 32 points. -/
theorem whole_facts : ∀ t : Fin cfg0.N,
    (win0_3.index t (0 : Fin 2) = 0 ∧ win0_3.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_14.index t (0 : Fin 2) = 0 ∧ win0_14.index t (1 : Fin 2) = 0)
    ∧ (win0_4.index t (0 : Fin 2) = 0 ∧ win0_4.index t (1 : Fin 2) = 0)
    ∧ (win0_7.index t (0 : Fin 2) = 0 ∧ win0_7.index t (1 : Fin 2) = 0)
    ∧ (win0_10.index t (0 : Fin 2) = 0 ∧ win0_10.index t (1 : Fin 2) = 0)
    ∧ (win0_13.index t (0 : Fin 2) = 0 ∧ win0_13.index t (1 : Fin 2) = 0) :=
  (by decide +kernel : ∀ t : Fin grid0.N, _)

/-! ## The arrays the host prepares before the region -/

/-- The array window 3 stages is argument 3 in the product's format: the same extended reals. -/
theorem V_main_v4 (c : Dev nD) :
    (V m c main_v4 : S512x512.Idx → EReal) = (m ((c : Thread nD τ).loc main_arg3) : S512x512.Idx → EReal) := by
  dsimp only [V, hostOps0]
  after_results
  rfl

/-- The array window 5 stages is argument 5 in the product's format: the same extended reals. -/
theorem V_main_v5 (c : Dev nD) :
    (V m c main_v5 : S512x512.Idx → EReal) = (m ((c : Thread nD τ).loc main_arg5) : S512x512.Idx → EReal) := by
  dsimp only [V, hostOps0]
  after_results
  rfl

/-- The array window 6 stages is argument 6 in the product's format: the same extended reals. -/
theorem V_main_v6 (c : Dev nD) :
    (V m c main_v6 : S512x512.Idx → EReal) = (m ((c : Thread nD τ).loc main_arg6) : S512x512.Idx → EReal) := by
  dsimp only [V, hostOps0]
  after_results
  rfl

/-- The array window 8 stages is argument 8 in the product's format: the same extended reals. -/
theorem V_main_v7 (c : Dev nD) :
    (V m c main_v7 : S512x512.Idx → EReal) = (m ((c : Thread nD τ).loc main_arg8) : S512x512.Idx → EReal) := by
  dsimp only [V, hostOps0]
  after_results
  rfl

/-- The array window 9 stages is argument 9 in the product's format: the same extended reals. -/
theorem V_main_v8 (c : Dev nD) :
    (V m c main_v8 : S512x512.Idx → EReal) = (m ((c : Thread nD τ).loc main_arg9) : S512x512.Idx → EReal) := by
  dsimp only [V, hostOps0]
  after_results
  rfl

/-- The array window 11 stages is argument 11 in the product's format: the same extended reals. -/
theorem V_main_v9 (c : Dev nD) :
    (V m c main_v9 : S512x512.Idx → EReal) = (m ((c : Thread nD τ).loc main_arg11) : S512x512.Idx → EReal) := by
  dsimp only [V, hostOps0]
  after_results
  rfl

/-- The array window 12 stages is argument 12 in the product's format: the same extended reals. -/
theorem V_main_v10 (c : Dev nD) :
    (V m c main_v10 : S512x512.Idx → EReal) = (m ((c : Thread nD τ).loc main_arg12) : S512x512.Idx → EReal) := by
  dsimp only [V, hostOps0]
  after_results
  rfl

/-- The array window 14 stages is argument 14 in the product's format: the same extended reals. -/
theorem V_main_v11 (c : Dev nD) :
    (V m c main_v11 : S512x512.Idx → EReal) = (m ((c : Thread nD τ).loc main_arg14) : S512x512.Idx → EReal) := by
  dsimp only [V, hostOps0]
  after_results
  rfl

/-- The array window 4 stages is argument 4 recast as a row. -/
theorem V_main_v0 (c : Dev nD) :
    (V m c main_v0 : S1x512.Idx → EReal)
      = shapeCast S1x512 (m ((c : Thread nD τ).loc main_arg4) : S512.Idx → EReal) shapeCasts_S512_S1x512 := by
  dsimp only [V, hostOps0]
  after_results
  rfl

/-- The array window 7 stages is argument 7 recast as a row. -/
theorem V_main_v1 (c : Dev nD) :
    (V m c main_v1 : S1x512.Idx → EReal)
      = shapeCast S1x512 (m ((c : Thread nD τ).loc main_arg7) : S512.Idx → EReal) shapeCasts_S512_S1x512 := by
  dsimp only [V, hostOps0]
  after_results
  rfl

/-- The array window 10 stages is argument 10 recast as a row. -/
theorem V_main_v2 (c : Dev nD) :
    (V m c main_v2 : S1x512.Idx → EReal)
      = shapeCast S1x512 (m ((c : Thread nD τ).loc main_arg10) : S512.Idx → EReal) shapeCasts_S512_S1x512 := by
  dsimp only [V, hostOps0]
  after_results
  rfl

/-- The array window 13 stages is argument 13 recast as a row. -/
theorem V_main_v3 (c : Dev nD) :
    (V m c main_v3 : S1x512.Idx → EReal)
      = shapeCast S1x512 (m ((c : Thread nD τ).loc main_arg13) : S512.Idx → EReal) shapeCasts_S512_S1x512 := by
  dsimp only [V, hostOps0]
  after_results
  rfl

/-! ## The blocks -/

/-- The input's block at point `t`: row `p` of the block is row `256 t + p` of the input. -/
theorem iblk0_apply (c : Dev nD) (t : Fin cfg0.N) (p : Fin 256) (k : Fin 512) (r : Fin 8192) (hr : r.val = 256 * t.val + p.val) :
    (iblk m c 0 t : Vec Ideal S256x512 .f32) (ix2 p k)
      = (m ((c : Thread nD τ).loc main_arg0) : S8192x512.Idx → EReal) (ix2 r k) := by
  obtain ⟨⟨e0, e1⟩, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 256 + 1 * p.val = r.val; rw [e0, hr]; omega
  | ⟨1, _⟩ => show win0_0.index t (1 : Fin 2) * 512 + 1 * k.val = k.val; rw [e1]; omega

/-- The children's hidden states' block at point `t`: rows `256 t + p` of all eight children. -/
theorem iblk1_apply (c : Dev nD) (t : Fin cfg0.N) (n : Fin 8) (p : Fin 256) (k : Fin 512) (r : Fin 8192)
    (hr : r.val = 256 * t.val + p.val) :
    (iblk m c 1 t : Vec Ideal S8x256x512 .f32) (ix3 n p k)
      = (m ((c : Thread nD τ).loc main_arg1) : S8x8192x512.Idx → EReal) (ix3 n r k) := by
  obtain ⟨-, ⟨e0, e1, e2⟩, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 3) * 8 + 1 * n.val = n.val; rw [e0]; omega
  | ⟨1, _⟩ => show win0_1.index t (1 : Fin 3) * 256 + 1 * p.val = r.val; rw [e1, hr]; omega
  | ⟨2, _⟩ => show win0_1.index t (2 : Fin 3) * 512 + 1 * k.val = k.val; rw [e2]; omega

/-- The children's cell states' block at point `t`: rows `256 t + p` of all eight children. -/
theorem iblk2_apply (c : Dev nD) (t : Fin cfg0.N) (n : Fin 8) (p : Fin 256) (k : Fin 512) (r : Fin 8192)
    (hr : r.val = 256 * t.val + p.val) :
    (iblk m c 2 t : Vec Ideal S8x256x512 .f32) (ix3 n p k)
      = (m ((c : Thread nD τ).loc main_arg2) : S8x8192x512.Idx → EReal) (ix3 n r k) := by
  obtain ⟨-, -, ⟨e0, e1, e2⟩, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 3) * 8 + 1 * n.val = n.val; rw [e0]; omega
  | ⟨1, _⟩ => show win0_2.index t (1 : Fin 3) * 256 + 1 * p.val = r.val; rw [e1, hr]; omega
  | ⟨2, _⟩ => show win0_2.index t (2 : Fin 3) * 512 + 1 * k.val = k.val; rw [e2]; omega

/-- Window 3's block at any point is the whole of argument 3. -/
theorem iblk3_apply (c : Dev nD) (t : Fin cfg0.N) (j k : Fin 512) :
    (iblk m c 3 t : Vec Ideal S512x512 .bf16) (ix2 j k)
      = (m ((c : Thread nD τ).loc main_arg3) : S512x512.Idx → EReal) (ix2 j k) := by
  obtain ⟨e0, e1⟩ := (whole_facts t).1
  unfold iblk
  rw [View.read_apply]
  show V m c main_v4 _ = _
  rw [V_main_v4]
  refine congrArg _ (funext fun a => Fin.ext ?_)
  match a with
  | ⟨0, _⟩ => show win0_3.index t (0 : Fin 2) * 512 + 1 * j.val = j.val; rw [e0]; omega
  | ⟨1, _⟩ => show win0_3.index t (1 : Fin 2) * 512 + 1 * k.val = k.val; rw [e1]; omega

/-- Window 5's block at any point is the whole of argument 5. -/
theorem iblk5_apply (c : Dev nD) (t : Fin cfg0.N) (j k : Fin 512) :
    (iblk m c 5 t : Vec Ideal S512x512 .bf16) (ix2 j k)
      = (m ((c : Thread nD τ).loc main_arg5) : S512x512.Idx → EReal) (ix2 j k) := by
  obtain ⟨e0, e1⟩ := (whole_facts t).2.1
  unfold iblk
  rw [View.read_apply]
  show V m c main_v5 _ = _
  rw [V_main_v5]
  refine congrArg _ (funext fun a => Fin.ext ?_)
  match a with
  | ⟨0, _⟩ => show win0_5.index t (0 : Fin 2) * 512 + 1 * j.val = j.val; rw [e0]; omega
  | ⟨1, _⟩ => show win0_5.index t (1 : Fin 2) * 512 + 1 * k.val = k.val; rw [e1]; omega

/-- Window 6's block at any point is the whole of argument 6. -/
theorem iblk6_apply (c : Dev nD) (t : Fin cfg0.N) (j k : Fin 512) :
    (iblk m c 6 t : Vec Ideal S512x512 .bf16) (ix2 j k)
      = (m ((c : Thread nD τ).loc main_arg6) : S512x512.Idx → EReal) (ix2 j k) := by
  obtain ⟨e0, e1⟩ := (whole_facts t).2.2.1
  unfold iblk
  rw [View.read_apply]
  show V m c main_v6 _ = _
  rw [V_main_v6]
  refine congrArg _ (funext fun a => Fin.ext ?_)
  match a with
  | ⟨0, _⟩ => show win0_6.index t (0 : Fin 2) * 512 + 1 * j.val = j.val; rw [e0]; omega
  | ⟨1, _⟩ => show win0_6.index t (1 : Fin 2) * 512 + 1 * k.val = k.val; rw [e1]; omega

/-- Window 8's block at any point is the whole of argument 8. -/
theorem iblk8_apply (c : Dev nD) (t : Fin cfg0.N) (j k : Fin 512) :
    (iblk m c 8 t : Vec Ideal S512x512 .bf16) (ix2 j k)
      = (m ((c : Thread nD τ).loc main_arg8) : S512x512.Idx → EReal) (ix2 j k) := by
  obtain ⟨e0, e1⟩ := (whole_facts t).2.2.2.1
  unfold iblk
  rw [View.read_apply]
  show V m c main_v7 _ = _
  rw [V_main_v7]
  refine congrArg _ (funext fun a => Fin.ext ?_)
  match a with
  | ⟨0, _⟩ => show win0_8.index t (0 : Fin 2) * 512 + 1 * j.val = j.val; rw [e0]; omega
  | ⟨1, _⟩ => show win0_8.index t (1 : Fin 2) * 512 + 1 * k.val = k.val; rw [e1]; omega

/-- Window 9's block at any point is the whole of argument 9. -/
theorem iblk9_apply (c : Dev nD) (t : Fin cfg0.N) (j k : Fin 512) :
    (iblk m c 9 t : Vec Ideal S512x512 .bf16) (ix2 j k)
      = (m ((c : Thread nD τ).loc main_arg9) : S512x512.Idx → EReal) (ix2 j k) := by
  obtain ⟨e0, e1⟩ := (whole_facts t).2.2.2.2.1
  unfold iblk
  rw [View.read_apply]
  show V m c main_v8 _ = _
  rw [V_main_v8]
  refine congrArg _ (funext fun a => Fin.ext ?_)
  match a with
  | ⟨0, _⟩ => show win0_9.index t (0 : Fin 2) * 512 + 1 * j.val = j.val; rw [e0]; omega
  | ⟨1, _⟩ => show win0_9.index t (1 : Fin 2) * 512 + 1 * k.val = k.val; rw [e1]; omega

/-- Window 11's block at any point is the whole of argument 11. -/
theorem iblk11_apply (c : Dev nD) (t : Fin cfg0.N) (j k : Fin 512) :
    (iblk m c 11 t : Vec Ideal S512x512 .bf16) (ix2 j k)
      = (m ((c : Thread nD τ).loc main_arg11) : S512x512.Idx → EReal) (ix2 j k) := by
  obtain ⟨e0, e1⟩ := (whole_facts t).2.2.2.2.2.1
  unfold iblk
  rw [View.read_apply]
  show V m c main_v9 _ = _
  rw [V_main_v9]
  refine congrArg _ (funext fun a => Fin.ext ?_)
  match a with
  | ⟨0, _⟩ => show win0_11.index t (0 : Fin 2) * 512 + 1 * j.val = j.val; rw [e0]; omega
  | ⟨1, _⟩ => show win0_11.index t (1 : Fin 2) * 512 + 1 * k.val = k.val; rw [e1]; omega

/-- Window 12's block at any point is the whole of argument 12. -/
theorem iblk12_apply (c : Dev nD) (t : Fin cfg0.N) (j k : Fin 512) :
    (iblk m c 12 t : Vec Ideal S512x512 .bf16) (ix2 j k)
      = (m ((c : Thread nD τ).loc main_arg12) : S512x512.Idx → EReal) (ix2 j k) := by
  obtain ⟨e0, e1⟩ := (whole_facts t).2.2.2.2.2.2.1
  unfold iblk
  rw [View.read_apply]
  show V m c main_v10 _ = _
  rw [V_main_v10]
  refine congrArg _ (funext fun a => Fin.ext ?_)
  match a with
  | ⟨0, _⟩ => show win0_12.index t (0 : Fin 2) * 512 + 1 * j.val = j.val; rw [e0]; omega
  | ⟨1, _⟩ => show win0_12.index t (1 : Fin 2) * 512 + 1 * k.val = k.val; rw [e1]; omega

/-- Window 14's block at any point is the whole of argument 14. -/
theorem iblk14_apply (c : Dev nD) (t : Fin cfg0.N) (j k : Fin 512) :
    (iblk m c 14 t : Vec Ideal S512x512 .bf16) (ix2 j k)
      = (m ((c : Thread nD τ).loc main_arg14) : S512x512.Idx → EReal) (ix2 j k) := by
  obtain ⟨e0, e1⟩ := (whole_facts t).2.2.2.2.2.2.2.1
  unfold iblk
  rw [View.read_apply]
  show V m c main_v11 _ = _
  rw [V_main_v11]
  refine congrArg _ (funext fun a => Fin.ext ?_)
  match a with
  | ⟨0, _⟩ => show win0_14.index t (0 : Fin 2) * 512 + 1 * j.val = j.val; rw [e0]; omega
  | ⟨1, _⟩ => show win0_14.index t (1 : Fin 2) * 512 + 1 * k.val = k.val; rw [e1]; omega

/-- Window 4's block at any point is argument 4 as a row. -/
theorem iblk4_apply (c : Dev nD) (t : Fin cfg0.N) (j : Fin 512) :
    (iblk m c 4 t : Vec Ideal S1x512 .f32) (ix2 (0 : Fin 1) j)
      = (m ((c : Thread nD τ).loc main_arg4) : S512.Idx → EReal) (ix1 j) := by
  obtain ⟨e0, e1⟩ := (whole_facts t).2.2.2.2.2.2.2.2.1
  unfold iblk
  rw [View.read_apply]
  show V m c main_v0 _ = _
  rw [V_main_v0]
  have e : ((cfg0.win 4).blk t).view.emb (ix2 (0 : Fin 1) j) = ix2 (0 : Fin 1) j :=
    funext fun a => Fin.ext (by
      match a with
      | ⟨0, _⟩ => show win0_4.index t (0 : Fin 2) * 1 + 1 * 0 = 0; rw [e0]
      | ⟨1, _⟩ => show win0_4.index t (1 : Fin 2) * 512 + 1 * j.val = j.val; rw [e1]; omega)
  rw [e]
  exact shapeCast_a_1a_apply _ shapeCasts_S512_S1x512 0 j

/-- Window 7's block at any point is argument 7 as a row. -/
theorem iblk7_apply (c : Dev nD) (t : Fin cfg0.N) (j : Fin 512) :
    (iblk m c 7 t : Vec Ideal S1x512 .f32) (ix2 (0 : Fin 1) j)
      = (m ((c : Thread nD τ).loc main_arg7) : S512.Idx → EReal) (ix1 j) := by
  obtain ⟨e0, e1⟩ := (whole_facts t).2.2.2.2.2.2.2.2.2.1
  unfold iblk
  rw [View.read_apply]
  show V m c main_v1 _ = _
  rw [V_main_v1]
  have e : ((cfg0.win 7).blk t).view.emb (ix2 (0 : Fin 1) j) = ix2 (0 : Fin 1) j :=
    funext fun a => Fin.ext (by
      match a with
      | ⟨0, _⟩ => show win0_7.index t (0 : Fin 2) * 1 + 1 * 0 = 0; rw [e0]
      | ⟨1, _⟩ => show win0_7.index t (1 : Fin 2) * 512 + 1 * j.val = j.val; rw [e1]; omega)
  rw [e]
  exact shapeCast_a_1a_apply _ shapeCasts_S512_S1x512 0 j

/-- Window 10's block at any point is argument 10 as a row. -/
theorem iblk10_apply (c : Dev nD) (t : Fin cfg0.N) (j : Fin 512) :
    (iblk m c 10 t : Vec Ideal S1x512 .f32) (ix2 (0 : Fin 1) j)
      = (m ((c : Thread nD τ).loc main_arg10) : S512.Idx → EReal) (ix1 j) := by
  obtain ⟨e0, e1⟩ := (whole_facts t).2.2.2.2.2.2.2.2.2.2.1
  unfold iblk
  rw [View.read_apply]
  show V m c main_v2 _ = _
  rw [V_main_v2]
  have e : ((cfg0.win 10).blk t).view.emb (ix2 (0 : Fin 1) j) = ix2 (0 : Fin 1) j :=
    funext fun a => Fin.ext (by
      match a with
      | ⟨0, _⟩ => show win0_10.index t (0 : Fin 2) * 1 + 1 * 0 = 0; rw [e0]
      | ⟨1, _⟩ => show win0_10.index t (1 : Fin 2) * 512 + 1 * j.val = j.val; rw [e1]; omega)
  rw [e]
  exact shapeCast_a_1a_apply _ shapeCasts_S512_S1x512 0 j

/-- Window 13's block at any point is argument 13 as a row. -/
theorem iblk13_apply (c : Dev nD) (t : Fin cfg0.N) (j : Fin 512) :
    (iblk m c 13 t : Vec Ideal S1x512 .f32) (ix2 (0 : Fin 1) j)
      = (m ((c : Thread nD τ).loc main_arg13) : S512.Idx → EReal) (ix1 j) := by
  obtain ⟨e0, e1⟩ := (whole_facts t).2.2.2.2.2.2.2.2.2.2.2
  unfold iblk
  rw [View.read_apply]
  show V m c main_v3 _ = _
  rw [V_main_v3]
  have e : ((cfg0.win 13).blk t).view.emb (ix2 (0 : Fin 1) j) = ix2 (0 : Fin 1) j :=
    funext fun a => Fin.ext (by
      match a with
      | ⟨0, _⟩ => show win0_13.index t (0 : Fin 2) * 1 + 1 * 0 = 0; rw [e0]
      | ⟨1, _⟩ => show win0_13.index t (1 : Fin 2) * 512 + 1 * j.val = j.val; rw [e1]; omega)
  rw [e]
  exact shapeCast_a_1a_apply _ shapeCasts_S512_S1x512 0 j

end Cert.KernelIdeal.Reads

end
-- ==== Proof.Spec.lean ====
/-
  The child-sum tree-LSTM cell, one batch row and one output feature at a time, over the extended reals.

  For a row `x` of the input, the eight children's hidden rows `h n` and, at output feature `j`, the children's
  cell entries `c n`, with weight matrices stored one row per output feature:

    s k   = Σ_n h n k                                        (the children's hidden states added up)
    i     = σ ((x · W_i j + b_i j) + s · U_i j)
    o     = σ ((x · W_o j + b_o j) + s · U_o j)
    u     = tanh ((x · W_u j + b_u j) + s · U_u j)
    f n   = σ ((x · W_f j + b_f j) + h n · U_f j)            (one forget gate per child)
    cell  = i · u + Σ_n f n · c n
    hidden = o · tanh cell

  where `σ t = 1 / (1 + e^(-t))` and `·` between two rows is the sum of the products of their entries.
  Every sum here is a finite sum in the commutative monoid of the extended reals, so the order and the grouping of
  its terms do not matter: a running sum started at zero and the sum over `Fin 8` are the same number.
-/
import Idealize.ShloMosaic.PureOps.Ideal
import Mathlib.Algebra.BigOperators.Fin

noncomputable section

open scoped BigOperators

namespace Cert.TreeLstm

open Idealize.ShloMosaic

/-- The product of two rows of 512 entries: the sum of the products of their entries. -/
def dot (u w : Fin 512 → EReal) : EReal := ∑ k : Fin 512, u k * w k

/-- The children's hidden rows added up, entry `k`. -/
def childSum (h : Fin 8 → Fin 512 → EReal) (k : Fin 512) : EReal := ∑ n : Fin 8, h n k

/-- What goes into the input, output and update gates at feature `j`: `(x · W j + b j) + s · U j`. -/
def gatePre (x : Fin 512 → EReal) (h : Fin 8 → Fin 512 → EReal) (W : Fin 512 → Fin 512 → EReal) (b : Fin 512 → EReal)
    (U : Fin 512 → Fin 512 → EReal) (j : Fin 512) : EReal :=
  (dot x (W j) + b j) + dot (childSum h) (U j)

/-- Child `n`'s forget gate at feature `j`: `σ ((x · W_f j + b_f j) + h n · U_f j)`. -/
def forgetGate (x : Fin 512 → EReal) (h : Fin 8 → Fin 512 → EReal) (Wf : Fin 512 → Fin 512 → EReal) (bf : Fin 512 → EReal)
    (Uf : Fin 512 → Fin 512 → EReal) (n : Fin 8) (j : Fin 512) : EReal :=
  Ideal.logistic ((dot x (Wf j) + bf j) + dot (h n) (Uf j))

/-- The twelve parameter arrays of the cell, each weight matrix with one row per output feature. -/
structure Params where
  Wi : Fin 512 → Fin 512 → EReal
  bi : Fin 512 → EReal
  Ui : Fin 512 → Fin 512 → EReal
  Wf : Fin 512 → Fin 512 → EReal
  bf : Fin 512 → EReal
  Uf : Fin 512 → Fin 512 → EReal
  Wo : Fin 512 → Fin 512 → EReal
  bo : Fin 512 → EReal
  Uo : Fin 512 → Fin 512 → EReal
  Wu : Fin 512 → Fin 512 → EReal
  bu : Fin 512 → EReal
  Uu : Fin 512 → Fin 512 → EReal

/-- The new cell state at feature `j`: `i · u + Σ_n f n · c n`. -/
def cell (P : Params) (x : Fin 512 → EReal) (h : Fin 8 → Fin 512 → EReal) (c : Fin 8 → EReal) (j : Fin 512) : EReal :=
  Ideal.logistic (gatePre x h P.Wi P.bi P.Ui j) * Ideal.tanh (gatePre x h P.Wu P.bu P.Uu j)
    + ∑ n : Fin 8, forgetGate x h P.Wf P.bf P.Uf n j * c n

/-- The new hidden state at feature `j`: `o · tanh cell`. -/
def hidden (P : Params) (x : Fin 512 → EReal) (h : Fin 8 → Fin 512 → EReal) (c : Fin 8 → EReal) (j : Fin 512) : EReal :=
  Ideal.logistic (gatePre x h P.Wo P.bo P.Uo j) * Ideal.tanh (cell P x h c j)

/-- Eight terms added one after the other, left to right, are their sum over `Fin 8`. -/
theorem sum8_left (a : Fin 8 → EReal) :
    ((((((a 0 + a 1) + a 2) + a 3) + a 4) + a 5) + a 6) + a 7 = ∑ n : Fin 8, a n :=
  (Fin.sum_univ_eight a).symm

/-- The same running sum started from zero. -/
theorem sum8_from_zero (a : Fin 8 → EReal) :
    (((((((0 + a 0) + a 1) + a 2) + a 3) + a 4) + a 5) + a 6) + a 7 = ∑ n : Fin 8, a n := by
  rw [zero_add]; exact sum8_left a

/-- The logistic function written out with the exponential and the extended-real quotient. -/
theorem logistic_eq (t : EReal) : Ideal.div 1 (1 + Ideal.exp (-t)) = Ideal.logistic t := rfl

end Cert.TreeLstm

end
-- ==== Proof.Whole.lean ====
/-
  The cell over whole arrays: batch row `r`, output feature `j` of the two results, as functions of the fifteen
  argument arrays. Row `r` of the results depends on row `r` of the input, on row `r` of each child's hidden
  state and on entry `(r, j)` of each child's cell state; the weights are shared by all rows.
-/
import proofs.«137281_j22247930593470_2_alg».proof.Proof.Spec
import Idealize.ShloMosaic.Lib.ValueIdx

noncomputable section

namespace Cert.TreeLstm

open Idealize.ShloMosaic Idealize.ShloMosaic.ValueIdx

/-- Row `r` of a `[B, 512]` array. -/
def rowOf {B : Nat} (x : (⟨2, ![B, 512]⟩ : Shape).Idx → EReal) (r : Fin B) : Fin 512 → EReal := fun k => x (ix2 r k)

/-- Row `r` of each of the eight children's `[B, 512]` arrays. -/
def childRows {B : Nat} (h : (⟨3, ![8, B, 512]⟩ : Shape).Idx → EReal) (r : Fin B) : Fin 8 → Fin 512 → EReal :=
  fun n k => h (ix3 n r k)

/-- Entry `(r, j)` of each of the eight children's arrays. -/
def childAt {B : Nat} (c : (⟨3, ![8, B, 512]⟩ : Shape).Idx → EReal) (r : Fin B) (j : Fin 512) : Fin 8 → EReal :=
  fun n => c (ix3 n r j)

/-- A weight matrix `[512, 512]`, one row per output feature. -/
def weights (W : (⟨2, ![512, 512]⟩ : Shape).Idx → EReal) : Fin 512 → Fin 512 → EReal := fun j k => W (ix2 j k)

/-- A bias vector `[512]`. -/
def biasOf (b : (⟨1, ![512]⟩ : Shape).Idx → EReal) : Fin 512 → EReal := fun j => b (ix1 j)

/-- The parameters from the twelve parameter arrays, in the order the programs take them. -/
def paramsOf (Wi : (⟨2, ![512, 512]⟩ : Shape).Idx → EReal) (bi : (⟨1, ![512]⟩ : Shape).Idx → EReal)
    (Ui Wf : (⟨2, ![512, 512]⟩ : Shape).Idx → EReal) (bf : (⟨1, ![512]⟩ : Shape).Idx → EReal)
    (Uf Wo : (⟨2, ![512, 512]⟩ : Shape).Idx → EReal) (bo : (⟨1, ![512]⟩ : Shape).Idx → EReal)
    (Uo Wu : (⟨2, ![512, 512]⟩ : Shape).Idx → EReal) (bu : (⟨1, ![512]⟩ : Shape).Idx → EReal)
    (Uu : (⟨2, ![512, 512]⟩ : Shape).Idx → EReal) : Params :=
  ⟨weights Wi, biasOf bi, weights Ui, weights Wf, biasOf bf, weights Uf, weights Wo, biasOf bo, weights Uo,
    weights Wu, biasOf bu, weights Uu⟩

/-- The new cell state of every batch row. -/
def cellArr (P : Params) (x : (⟨2, ![8192, 512]⟩ : Shape).Idx → EReal) (h c : (⟨3, ![8, 8192, 512]⟩ : Shape).Idx → EReal) :
    (⟨2, ![8192, 512]⟩ : Shape).Idx → EReal :=
  fun i => cell P (rowOf x (i 0)) (childRows h (i 0)) (childAt c (i 0) (i 1)) (i 1)

/-- The new hidden state of every batch row. -/
def hiddenArr (P : Params) (x : (⟨2, ![8192, 512]⟩ : Shape).Idx → EReal) (h c : (⟨3, ![8, 8192, 512]⟩ : Shape).Idx → EReal) :
    (⟨2, ![8192, 512]⟩ : Shape).Idx → EReal :=
  fun i => hidden P (rowOf x (i 0)) (childRows h (i 0)) (childAt c (i 0) (i 1)) (i 1)

theorem cellArr_ix2 (P : Params) (x : (⟨2, ![8192, 512]⟩ : Shape).Idx → EReal) (h c : (⟨3, ![8, 8192, 512]⟩ : Shape).Idx → EReal)
    (r : Fin 8192) (j : Fin 512) :
    cellArr P x h c (ix2 r j) = cell P (rowOf x r) (childRows h r) (childAt c r j) j := rfl

theorem hiddenArr_ix2 (P : Params) (x : (⟨2, ![8192, 512]⟩ : Shape).Idx → EReal) (h c : (⟨3, ![8, 8192, 512]⟩ : Shape).Idx → EReal)
    (r : Fin 8192) (j : Fin 512) :
    hiddenArr P x h c (ix2 r j) = hidden P (rowOf x r) (childRows h r) (childAt c r j) j := rfl

end Cert.TreeLstm

end
-- ==== Proof.LibLinTile.lean ====
/-
  A tile of a linear layer and its column statistics, read entry by entry over the extended reals.

  * A matrix product whose two operands are both contracted along their LAST axis (dimension numbers
    `[1] × [1]`, no batch axes, free axes `[0]` and `[0]`): an `M × K` by `N × K` product accumulated into the
    zero matrix is, at entry `(a, b)`, `Σ_k l (a, k) · r (b, k)` — the left operand times the transpose of the
    right one. The dimension-number record is a variable with its six lists given by hypotheses.
  * A column `[m, 1]` broadcast along the second axis reads `(r, 0)` at `(r, c)`.
  * The sum of an `[m, n]` matrix along its first axis is, at column `c`, `Σ_p v (p, c)`; recast as a row
    `[1, n]` and added to a row it gives the running column sums.
  * The tile itself: with `agg, h : [m, K]`, a column `d : [m, 1]`, weights `wl, wr : [n, K]` and a bias row
    `b : [1, n]`, the value `((agg ∘ d) · wlᵀ + h · wrᵀ) + b` (operands passed through a change of format, which
    is the identity on the extended reals) is, at `(p, q)`,
    `(Σ_k (agg (p, k) · d (p, 0)) · wl (q, k) + Σ_k h (p, k) · wr (q, k)) + b (0, q)`.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibLinTile

open Idealize.ShloMosaic Idealize.ShloMosaic.ValueIdx

/-! ## The product with both operands contracted on their last axis -/

section Matmul

variable {M K N : Nat} (D : DotDims ⟨2, ![M, K]⟩ ⟨2, ![N, K]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `0`, the right operand's row is the result's column. -/
theorem rhs_row (hln : D.lhsNonContracting = [0]) (hrn : D.rhsNonContracting = [0]) (hlb : D.lhsBatch = [])
    (hrb : D.rhsBatch = []) (j : (⟨2, ![M, N]⟩ : Shape).Idx) (q : D.contr.Idx) : (D.rhsIdx j q 0).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- An `M × K` by `N × K` product, both contracted on the last axis, into the zero matrix, at entry `(a, b)`:
    `Σ_k l (a, k) · r (b, k)`. -/
theorem matmul_zero_apply {φ₁ φ₂ : FTy}
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![M, K]⟩ φ₁) (r : FVec Ideal ⟨2, ![N, K]⟩ φ₂)
    (a : Fin M) (b : Fin N) :
    FloatOps.matmul D prec l r (constant (F := Ideal) ⟨2, ![M, N]⟩ .f32 0x00000000#32) (ix2 a b)
      = ∑ k : Fin K, l (ix2 a k) * r (ix2 b k) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 b k :=
    funext fun c => Fin.ext (by
      match c with
      | ⟨0, _⟩ => exact rhs_row D hln hrn hlb hrb _ _
      | ⟨1, _⟩ => exact (D.rhsIdx_val_of_single hrc _ _).trans hk)
  rw [el, er]

end Matmul

/-! ## A column broadcast along the rows' entries -/

/-- A column `[m, 1]` broadcast to `[m, n]`, read at `(r, c)`, is the column at `(r, 0)`. -/
theorem bcast_col {α : Type} {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r (0 : Fin 1)) :=
  broadcastTo_apply v h (ix2 r c) (ix2 r (0 : Fin 1)) (fun a => match a with
    | ⟨0, _⟩ => by show r.val = (if m = 1 then 0 else r.val); rw [if_neg hm]
    | ⟨1, _⟩ => by show 0 = (if (1 : ℕ) = 1 then 0 else c.val); rw [if_pos rfl])

/-! ## Sums down the columns -/

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (lift_col h c k)

/-- A row plus the column sums of a matrix kept as a row: at `(0, c)` the row's entry plus `Σ_p v (p, c)`. -/
theorem addColSum_apply {m n : ℕ} (row : FVec Ideal (⟨2, ![1, n]⟩ : Shape) .f32) (v : FVec Ideal (⟨2, ![m, n]⟩ : Shape) .f32)
    (acc : BitVec 32) (h : (⟨2, ![m, n]⟩ : Shape).Reduces [0] (⟨1, ![n]⟩ : Shape)) (hφ : FKind.Formats .f32)
    (hacc : acc = FKind.add.neutral .f32 hφ) (hc : (⟨1, ![n]⟩ : Shape).ShapeCasts ⟨2, ![1, n]⟩) (c : Fin n) :
    addf row (shapeCast ⟨2, ![1, n]⟩ (multiReduction .add [0] (⟨1, ![n]⟩ : Shape) v acc h hφ hacc) hc) (ix2 (0 : Fin 1) c)
      = row (ix2 (0 : Fin 1) c) + ∑ p : Fin m, v (ix2 p c) :=
  (addf_apply _ _ _).trans (congrArg (row (ix2 (0 : Fin 1) c) + ·)
    ((shapeCast_a_1a_apply _ hc 0 c).trans (colSum_apply v acc h hφ hacc c)))

/-! ## The tile -/

/-- The tile's value at `(p, q)`. -/
theorem tile_apply {m K n : ℕ} (D : DotDims ⟨2, ![m, K]⟩ ⟨2, ![n, K]⟩ ⟨2, ![m, n]⟩)
    (hlc : D.lhsContracting = [1]) (hrc : D.rhsContracting = [1]) (hln : D.lhsNonContracting = [0])
    (hrn : D.rhsNonContracting = [0]) (hlb : D.lhsBatch = []) (hrb : D.rhsBatch = [])
    (hm : m ≠ 1)
    (agg h : FVec Ideal ⟨2, ![m, K]⟩ .f32) (d : FVec Ideal ⟨2, ![m, 1]⟩ .f32) (wl wr : FVec Ideal ⟨2, ![n, K]⟩ .f32)
    (b : FVec Ideal ⟨2, ![1, n]⟩ .f32)
    (hbc : (⟨2, ![m, 1]⟩ : Shape).Broadcasts ⟨2, ![m, K]⟩) (hbr : (⟨2, ![1, n]⟩ : Shape).Broadcasts ⟨2, ![m, n]⟩)
    (hlt : FTy.bits .bf16 < FTy.bits .f32) (p : Fin m) (q : Fin n) :
    addf (addf
        (matmul D none (truncf .bf16 (mulf agg (broadcastTo ⟨2, ![m, K]⟩ d hbc)) hlt) (truncf .bf16 wl hlt)
          (constant (F := Ideal) ⟨2, ![m, n]⟩ .f32 0x00000000#32))
        (matmul D none (truncf .bf16 h hlt) (truncf .bf16 wr hlt) (constant (F := Ideal) ⟨2, ![m, n]⟩ .f32 0x00000000#32)))
      (broadcastTo ⟨2, ![m, n]⟩ b hbr) (ix2 p q)
      = ((∑ k : Fin K, (agg (ix2 p k) * d (ix2 p (0 : Fin 1))) * wl (ix2 q k)) + ∑ k : Fin K, h (ix2 p k) * wr (ix2 q k))
          + b (ix2 (0 : Fin 1) q) := by
  refine (addf_apply _ _ _).trans ?_
  refine congrArg₂ (· + ·) ((addf_apply _ _ _).trans (congrArg₂ (· + ·) ?_ ?_)) (broadcastTo_1b_ab_apply b hbr p q)
  · refine (matmul_zero_apply D hlc hrc hln hrn hlb hrb none _ _ p q).trans ?_
    refine Finset.sum_congr rfl fun k _ => ?_
    show (agg (ix2 p k) * broadcastTo ⟨2, ![m, K]⟩ d hbc (ix2 p k)) * wl (ix2 q k) = _
    rw [bcast_col hm d hbc p k]
  · exact matmul_zero_apply D hlc hrc hln hrn hlb hrb none _ _ p q

end Cert.LibLinTile

end
-- ==== Proof.KernelTile.lean ====
/-
  The kernel's arithmetic on one tile of 256 batch rows, read entry by entry over the extended reals.

  A tile holds 256 rows of the input, the same 256 rows of each of the eight children's hidden and cell states
  (one slab `[1, 256, 512]` per child), and all of the weights. Every value the body computes for row `p` depends on
  row `p` of these only: a product of a tile with a weight matrix stored one row per output feature is, at `(p, q)`,
  row `p` of the tile times row `q` of the weights; a bias row repeated down the tile is its entry `q`; the children's
  hidden states added one after the other are their sum; the forget gates times the children's cell states added one
  after the other from zero are their sum. A change of float format is the identity on the extended reals.
-/
import proofs.«137281_j22247930593470_2_alg».proof.Proof.Gen.KernelIdeal.Skeleton
import proofs.«137281_j22247930593470_2_alg».proof.Proof.Whole
import proofs.«137281_j22247930593470_2_alg».proof.Proof.LibLinTile
import Idealize.ShloMosaic.Lib.ValueIdx
import Idealize.ShloMosaic.Lib.ValueLayout
import Idealize.ShloMosaic.Lib.Pipeline.Value

noncomputable section

open scoped BigOperators

namespace Cert.KernelIdeal.Tile

open Cert.KernelIdeal Cert.KernelIdeal.Gen Idealize.ShloMosaic Idealize.ShloMosaic.ValueIdx Cert.TreeLstm

/-- Row `p` of one child's slab `[1, 256, 512]`. -/
def slabRow (v : FVec Ideal S1x256x512 .f32) (p : Fin 256) : Fin 512 → EReal := fun k => v (ix3 (0 : Fin 1) p k)

/-- A bias kept as a row `[1, 512]`. -/
def rowBias (b : FVec Ideal S1x512 .f32) : Fin 512 → EReal := fun j => b (ix2 (0 : Fin 1) j)

theorem logistic_apply {s : Shape} {φ : FTy} (a : FVec Ideal s φ) (i : s.Idx) : logistic a i = Ideal.logistic (a i) := rfl

theorem tanh_apply {s : Shape} {φ : FTy} (a : FVec Ideal s φ) (i : s.Idx) : tanh a i = Ideal.tanh (a i) := rfl

/-- A tile times a weight matrix stored one row per output feature, into the zero tile, at `(p, q)`. -/
theorem mm_apply (l : FVec Ideal S256x512 .bf16) (W : FVec Ideal S512x512 .bf16) (p : Fin 256) (q : Fin 512) :
    matmul dot_S256x512_S512x512_S256x512_1_1_0_0_n_n none l W (constant (F := Ideal) S256x512 .f32 0x00000000#32) (ix2 p q)
      = dot (rowOf l p) (weights W q) :=
  Cert.LibLinTile.matmul_zero_apply dot_S256x512_S512x512_S256x512_1_1_0_0_n_n rfl rfl rfl rfl rfl rfl none l W p q

/-- A weight block recast to its own shape is itself. -/
theorem wcast (W : FVec Ideal S512x512 .bf16) : shapeCast S512x512 W shapeCasts_S512x512_S512x512 = W :=
  shapeCast_self W _

/-- The bias row repeated down the tile, at `(p, q)`. -/
theorem bias_apply (b : FVec Ideal S1x512 .f32) (p : Fin 256) (q : Fin 512) :
    broadcastTo S256x512 (shapeCast S1x512 b shapeCasts_S1x512_S1x512) broadcasts_S1x512_S256x512 (ix2 p q) = rowBias b q := by
  rw [shapeCast_self]
  exact broadcastTo_1b_ab_apply b broadcasts_S1x512_S256x512 p q

/-- One child's slab recast as a tile, at `(p, k)`. -/
theorem slab_apply (v : FVec Ideal S1x256x512 .f32) (p : Fin 256) (k : Fin 512) :
    shapeCast S256x512 v shapeCasts_S1x256x512_S256x512 (ix2 p k) = slabRow v p k :=
  shapeCast_1ab_ab_apply v shapeCasts_S1x256x512_S256x512 p k

/-! ## The body's values, one at a time -/

/-- The input tile in the product's format: itself. -/
theorem pay3_row (X : FVec Ideal S256x512 .f32) (p : Fin 256) : rowOf (k0_pay3 (F := Ideal) X) p = rowOf X p := rfl

/-- The children's hidden slabs added one after the other, row `p`: their sum. -/
theorem pay4_row (H0 H1 H2 H3 H4 H5 H6 H7 : FVec Ideal S1x256x512 .f32) (p : Fin 256) (h : Fin 8 → Fin 512 → EReal)
    (h0 : slabRow H0 p = h 0) (h1 : slabRow H1 p = h 1) (h2 : slabRow H2 p = h 2) (h3 : slabRow H3 p = h 3)
    (h4 : slabRow H4 p = h 4) (h5 : slabRow H5 p = h 5) (h6 : slabRow H6 p = h 6) (h7 : slabRow H7 p = h 7) :
    rowOf (k0_pay4 (F := Ideal) H0 H1 H2 H3 H4 H5 H6 H7) p = childSum h := by
  funext k
  unfold rowOf
  simp only [k0_pay4, truncf_apply, addf_apply, slab_apply, h0, h1, h2, h3, h4, h5, h6, h7]
  exact sum8_left (fun n => h n k)

/-- `x · W` on the tile. -/
theorem pay5_apply (X : FVec Ideal S256x512 .f32) (W : FVec Ideal S512x512 .bf16) (p : Fin 256) (q : Fin 512) :
    k0_pay5 (F := Ideal) X W (ix2 p q) = dot (rowOf X p) (weights W q) := by
  simp only [k0_pay5, wcast]
  exact mm_apply (k0_pay3 (F := Ideal) X) W p q

/-- The input gate on the tile, from `x · W_i`. -/
theorem pay6_apply (S : FVec Ideal S256x512 .bf16) (xw : FVec Ideal S256x512 .f32) (b : FVec Ideal S1x512 .f32)
    (U : FVec Ideal S512x512 .bf16) (p : Fin 256) (q : Fin 512) :
    k0_pay6 (F := Ideal) S xw b U (ix2 p q) = Ideal.logistic ((xw (ix2 p q) + rowBias b q) + dot (rowOf S p) (weights U q)) := by
  simp only [k0_pay6, logistic_apply, addf_apply, bias_apply, wcast, mm_apply]

/-- The output gate on the tile. -/
theorem pay7_apply (X S : FVec Ideal S256x512 .bf16) (W : FVec Ideal S512x512 .bf16) (b : FVec Ideal S1x512 .f32)
    (U : FVec Ideal S512x512 .bf16) (p : Fin 256) (q : Fin 512) :
    k0_pay7 (F := Ideal) X S W b U (ix2 p q)
      = Ideal.logistic ((dot (rowOf X p) (weights W q) + rowBias b q) + dot (rowOf S p) (weights U q)) := by
  simp only [k0_pay7, logistic_apply, addf_apply, bias_apply, wcast, mm_apply]

/-- The update gate on the tile. -/
theorem pay8_apply (X S : FVec Ideal S256x512 .bf16) (W : FVec Ideal S512x512 .bf16) (b : FVec Ideal S1x512 .f32)
    (U : FVec Ideal S512x512 .bf16) (p : Fin 256) (q : Fin 512) :
    k0_pay8 (F := Ideal) X S W b U (ix2 p q)
      = Ideal.tanh ((dot (rowOf X p) (weights W q) + rowBias b q) + dot (rowOf S p) (weights U q)) := by
  simp only [k0_pay8, tanh_apply, addf_apply, bias_apply, wcast, mm_apply]

/-- `x · W_f` on the tile. -/
theorem pay9_apply (X : FVec Ideal S256x512 .bf16) (W : FVec Ideal S512x512 .bf16) (p : Fin 256) (q : Fin 512) :
    k0_pay9 (F := Ideal) X W (ix2 p q) = dot (rowOf X p) (weights W q) := by
  simp only [k0_pay9, wcast, mm_apply]

/-- `x · W_f + b_f` on the tile. -/
theorem pay10_apply (xw : FVec Ideal S256x512 .f32) (b : FVec Ideal S1x512 .f32) (p : Fin 256) (q : Fin 512) :
    k0_pay10 (F := Ideal) xw b (ix2 p q) = xw (ix2 p q) + rowBias b q := by
  simp only [k0_pay10, addf_apply, bias_apply]

/-- The forget weights as loaded. -/
theorem pay11_eq (U : FVec Ideal S512x512 .bf16) : k0_pay11 (F := Ideal) U = U := wcast U

/-- Row `p` of a child's slab recast as a tile in the product's format. -/
theorem slab_row (H : FVec Ideal S1x256x512 .f32) (p : Fin 256) :
    rowOf (truncf .bf16 (shapeCast S256x512 H shapeCasts_S1x256x512_S256x512) bitsLt_bf16_f32 : FVec Ideal S256x512 .bf16) p
      = slabRow H p := by
  funext k
  exact slab_apply H p k

/-- The zero the running sum of the forget terms starts from. -/
theorem zero_scalar : Scalar.ofBits (F := Ideal) .f32 0x00000000#32 = (0 : EReal) := Ideal.ofBits_zero_f32

/-- The forget terms of children 0 and 1 added to zero. -/
theorem pay12_apply (xw : FVec Ideal S256x512 .f32) (b : FVec Ideal S1x512 .f32) (U : FVec Ideal S512x512 .bf16)
    (H0 C0 H1 C1 : FVec Ideal S1x256x512 .f32) (p : Fin 256) (q : Fin 512) :
    k0_pay12 (F := Ideal) xw b U H0 C0 H1 C1 (ix2 p q)
      = (0 + Ideal.logistic ((xw (ix2 p q) + rowBias b q) + dot (slabRow H0 p) (weights U q)) * slabRow C0 p q)
          + Ideal.logistic ((xw (ix2 p q) + rowBias b q) + dot (slabRow H1 p) (weights U q)) * slabRow C1 p q := by
  simp only [k0_pay12, addf_apply, mulf_apply, logistic_apply, pay10_apply, pay11_eq, mm_apply, slab_row, slab_apply,
    broadcast_apply, zero_scalar]

/-- Child 2's forget gate on the tile. -/
theorem pay13_apply (xw : FVec Ideal S256x512 .f32) (b : FVec Ideal S1x512 .f32) (U : FVec Ideal S512x512 .bf16)
    (H : FVec Ideal S1x256x512 .f32) (p : Fin 256) (q : Fin 512) :
    k0_pay13 (F := Ideal) xw b U H (ix2 p q)
      = Ideal.logistic ((xw (ix2 p q) + rowBias b q) + dot (slabRow H p) (weights U q)) := by
  simp only [k0_pay13, addf_apply, logistic_apply, pay10_apply, pay11_eq, mm_apply, slab_row]

/-- Child 2's cell slab as a tile. -/
theorem pay14_apply (C : FVec Ideal S1x256x512 .f32) (p : Fin 256) (q : Fin 512) :
    k0_pay14 (F := Ideal) C (ix2 p q) = slabRow C p q := by
  simp only [k0_pay14, slab_apply]

/-- The running sum after children 2 to 5. -/
theorem pay15_apply (w : FVec Ideal S256x512 .f32) (U : FVec Ideal S512x512 .bf16) (acc f2 c2 : FVec Ideal S256x512 .f32)
    (H3 C3 H4 C4 H5 C5 : FVec Ideal S1x256x512 .f32) (p : Fin 256) (q : Fin 512) :
    k0_pay15 (F := Ideal) w U acc f2 c2 H3 C3 H4 C4 H5 C5 (ix2 p q)
      = (((acc (ix2 p q) + f2 (ix2 p q) * c2 (ix2 p q))
          + Ideal.logistic (w (ix2 p q) + dot (slabRow H3 p) (weights U q)) * slabRow C3 p q)
          + Ideal.logistic (w (ix2 p q) + dot (slabRow H4 p) (weights U q)) * slabRow C4 p q)
          + Ideal.logistic (w (ix2 p q) + dot (slabRow H5 p) (weights U q)) * slabRow C5 p q := by
  simp only [k0_pay15, addf_apply, mulf_apply, logistic_apply, mm_apply, slab_row, slab_apply]

/-- Child 6's hidden slab in the product's format, row `p`. -/
theorem pay16_row (H : FVec Ideal S1x256x512 .f32) (p : Fin 256) : rowOf (k0_pay16 (F := Ideal) H) p = slabRow H p := by
  funext k
  exact slab_apply H p k

/-- The new cell state on the tile, from the gates and the running sum after child 5. -/
theorem pay1_apply (i u w : FVec Ideal S256x512 .f32) (U : FVec Ideal S512x512 .bf16) (acc : FVec Ideal S256x512 .f32)
    (S6 : FVec Ideal S256x512 .bf16) (C6 H7 C7 : FVec Ideal S1x256x512 .f32) (p : Fin 256) (q : Fin 512) :
    k0_pay1 (F := Ideal) i u w U acc S6 (constant (F := Ideal) S256x512 .f32 0x00000000#32) C6 H7 C7 (ix2 p q)
      = i (ix2 p q) * u (ix2 p q)
          + ((acc (ix2 p q) + Ideal.logistic (w (ix2 p q) + dot (rowOf S6 p) (weights U q)) * slabRow C6 p q)
              + Ideal.logistic (w (ix2 p q) + dot (slabRow H7 p) (weights U q)) * slabRow C7 p q) := by
  simp only [k0_pay1, addf_apply, mulf_apply, logistic_apply, mm_apply, slab_row, slab_apply]

/-- The new hidden state on the tile: the output gate times `tanh` of the new cell state. -/
theorem pay2_apply (i o u w : FVec Ideal S256x512 .f32) (U : FVec Ideal S512x512 .bf16) (acc : FVec Ideal S256x512 .f32)
    (S6 : FVec Ideal S256x512 .bf16) (z : FVec Ideal S256x512 .f32) (C6 H7 C7 : FVec Ideal S1x256x512 .f32)
    (p : Fin 256) (q : Fin 512) :
    k0_pay2 (F := Ideal) i o u w U acc S6 z C6 H7 C7 (ix2 p q)
      = o (ix2 p q) * Ideal.tanh (k0_pay1 (F := Ideal) i u w U acc S6 z C6 H7 C7 (ix2 p q)) := by
  simp only [k0_pay2, mulf_apply, tanh_apply]

/-! ## The two stored values on the tile -/

/-- The value stored to the cell-state output, at `(p, q)`: the new cell state of row `p`, feature `q`, given the rows
    `h n` of the children's hidden slabs and the entries `c n` of their cell slabs. -/
theorem cell_tile (X : FVec Ideal S256x512 .f32) (H0 H1 H2 H3 H4 H5 H6 H7 C0 C1 C2 C3 C4 C5 C6 C7 : FVec Ideal S1x256x512 .f32)
    (Wi : FVec Ideal S512x512 .bf16) (bi : FVec Ideal S1x512 .f32) (Ui Wf : FVec Ideal S512x512 .bf16)
    (bf : FVec Ideal S1x512 .f32) (Uf Wu : FVec Ideal S512x512 .bf16) (bu : FVec Ideal S1x512 .f32)
    (Uu : FVec Ideal S512x512 .bf16) (P : Params)
    (hWi : P.Wi = weights Wi) (hbi : P.bi = rowBias bi) (hUi : P.Ui = weights Ui)
    (hWf : P.Wf = weights Wf) (hbf : P.bf = rowBias bf) (hUf : P.Uf = weights Uf)
    (hWu : P.Wu = weights Wu) (hbu : P.bu = rowBias bu) (hUu : P.Uu = weights Uu)
    (p : Fin 256) (q : Fin 512) (h : Fin 8 → Fin 512 → EReal) (c : Fin 8 → EReal)
    (h0 : slabRow H0 p = h 0) (h1 : slabRow H1 p = h 1) (h2 : slabRow H2 p = h 2) (h3 : slabRow H3 p = h 3)
    (h4 : slabRow H4 p = h 4) (h5 : slabRow H5 p = h 5) (h6 : slabRow H6 p = h 6) (h7 : slabRow H7 p = h 7)
    (c0 : slabRow C0 p q = c 0) (c1 : slabRow C1 p q = c 1) (c2 : slabRow C2 p q = c 2) (c3 : slabRow C3 p q = c 3)
    (c4 : slabRow C4 p q = c 4) (c5 : slabRow C5 p q = c 5) (c6 : slabRow C6 p q = c 6) (c7 : slabRow C7 p q = c 7) :
    k0_pay1 (F := Ideal) (k0_pay6 (k0_pay4 H0 H1 H2 H3 H4 H5 H6 H7) (k0_pay5 X Wi) bi Ui)
        (k0_pay8 (k0_pay3 X) (k0_pay4 H0 H1 H2 H3 H4 H5 H6 H7) Wu bu Uu)
        (k0_pay10 (k0_pay9 (k0_pay3 X) Wf) bf) (k0_pay11 Uf)
        (k0_pay15 (k0_pay10 (k0_pay9 (k0_pay3 X) Wf) bf) (k0_pay11 Uf)
          (k0_pay12 (k0_pay9 (k0_pay3 X) Wf) bf Uf H0 C0 H1 C1) (k0_pay13 (k0_pay9 (k0_pay3 X) Wf) bf Uf H2) (k0_pay14 C2)
          H3 C3 H4 C4 H5 C5)
        (k0_pay16 H6) (constant (F := Ideal) S256x512 .f32 0x00000000#32) C6 H7 C7 (ix2 p q)
      = cell P (rowOf X p) h c q := by
  rw [pay1_apply, pay6_apply, pay8_apply, pay5_apply, pay15_apply, pay12_apply, pay13_apply, pay14_apply, pay10_apply,
    pay9_apply, pay11_eq, pay3_row, pay16_row, pay4_row H0 H1 H2 H3 H4 H5 H6 H7 p h h0 h1 h2 h3 h4 h5 h6 h7,
    h0, h1, h2, h3, h4, h5, h6, h7, c0, c1, c2, c3, c4, c5, c6, c7]
  unfold cell gatePre forgetGate
  rw [hWi, hbi, hUi, hWf, hbf, hUf, hWu, hbu, hUu]
  exact congrArg (_ + ·) (sum8_from_zero
    (fun n => Ideal.logistic ((dot (rowOf X p) (weights Wf q) + rowBias bf q) + dot (h n) (weights Uf q)) * c n))

/-- The value stored to the hidden-state output, at `(p, q)`: the new hidden state of row `p`, feature `q`. -/
theorem hidden_tile (X : FVec Ideal S256x512 .f32) (H0 H1 H2 H3 H4 H5 H6 H7 C0 C1 C2 C3 C4 C5 C6 C7 : FVec Ideal S1x256x512 .f32)
    (Wi : FVec Ideal S512x512 .bf16) (bi : FVec Ideal S1x512 .f32) (Ui Wf : FVec Ideal S512x512 .bf16)
    (bf : FVec Ideal S1x512 .f32) (Uf Wo : FVec Ideal S512x512 .bf16) (bo : FVec Ideal S1x512 .f32)
    (Uo Wu : FVec Ideal S512x512 .bf16) (bu : FVec Ideal S1x512 .f32) (Uu : FVec Ideal S512x512 .bf16) (P : Params)
    (hWi : P.Wi = weights Wi) (hbi : P.bi = rowBias bi) (hUi : P.Ui = weights Ui)
    (hWf : P.Wf = weights Wf) (hbf : P.bf = rowBias bf) (hUf : P.Uf = weights Uf)
    (hWo : P.Wo = weights Wo) (hbo : P.bo = rowBias bo) (hUo : P.Uo = weights Uo)
    (hWu : P.Wu = weights Wu) (hbu : P.bu = rowBias bu) (hUu : P.Uu = weights Uu)
    (p : Fin 256) (q : Fin 512) (h : Fin 8 → Fin 512 → EReal) (c : Fin 8 → EReal)
    (h0 : slabRow H0 p = h 0) (h1 : slabRow H1 p = h 1) (h2 : slabRow H2 p = h 2) (h3 : slabRow H3 p = h 3)
    (h4 : slabRow H4 p = h 4) (h5 : slabRow H5 p = h 5) (h6 : slabRow H6 p = h 6) (h7 : slabRow H7 p = h 7)
    (c0 : slabRow C0 p q = c 0) (c1 : slabRow C1 p q = c 1) (c2 : slabRow C2 p q = c 2) (c3 : slabRow C3 p q = c 3)
    (c4 : slabRow C4 p q = c 4) (c5 : slabRow C5 p q = c 5) (c6 : slabRow C6 p q = c 6) (c7 : slabRow C7 p q = c 7) :
    k0_pay2 (F := Ideal) (k0_pay6 (k0_pay4 H0 H1 H2 H3 H4 H5 H6 H7) (k0_pay5 X Wi) bi Ui)
        (k0_pay7 (k0_pay3 X) (k0_pay4 H0 H1 H2 H3 H4 H5 H6 H7) Wo bo Uo)
        (k0_pay8 (k0_pay3 X) (k0_pay4 H0 H1 H2 H3 H4 H5 H6 H7) Wu bu Uu)
        (k0_pay10 (k0_pay9 (k0_pay3 X) Wf) bf) (k0_pay11 Uf)
        (k0_pay15 (k0_pay10 (k0_pay9 (k0_pay3 X) Wf) bf) (k0_pay11 Uf)
          (k0_pay12 (k0_pay9 (k0_pay3 X) Wf) bf Uf H0 C0 H1 C1) (k0_pay13 (k0_pay9 (k0_pay3 X) Wf) bf Uf H2) (k0_pay14 C2)
          H3 C3 H4 C4 H5 C5)
        (k0_pay16 H6) (constant (F := Ideal) S256x512 .f32 0x00000000#32) C6 H7 C7 (ix2 p q)
      = TreeLstm.hidden P (rowOf X p) h c q := by
  rw [pay2_apply, cell_tile X H0 H1 H2 H3 H4 H5 H6 H7 C0 C1 C2 C3 C4 C5 C6 C7 Wi bi Ui Wf bf Uf Wu bu Uu P hWi hbi hUi hWf hbf hUf
    hWu hbu hUu p q h c h0 h1 h2 h3 h4 h5 h6 h7 c0 c1 c2 c3 c4 c5 c6 c7,
    pay7_apply, pay3_row, pay4_row H0 H1 H2 H3 H4 H5 H6 H7 p h h0 h1 h2 h3 h4 h5 h6 h7]
  unfold TreeLstm.hidden gatePre
  rw [hWo, hbo, hUo]

end Cert.KernelIdeal.Tile

end
-- ==== Proof.KernelBlock.lean ====
/-
  What the body leaves in the two output tiles, as functions of the input tiles.

  The body reads the input tile and the weight blocks whole, and each child's slab of the two `[8, 256, 512]`
  blocks through a rectangle one child thick: slab `n`, read at `(0, p, k)`, is the block at `(n, p, k)`. It stores
  each output tile once, whole. So entry `(p, q)` of the stored tiles is the cell's new cell state and new hidden state for
  row `p` of the tile and feature `q`, with the weights as the tile's weight blocks hold them.
-/
import proofs.«137281_j22247930593470_2_alg».proof.Proof.Gen.KernelIdeal.Frame
import proofs.«137281_j22247930593470_2_alg».proof.Proof.KernelTile

noncomputable section

namespace Cert.KernelIdeal.Block

open Cert.KernelIdeal Cert.KernelIdeal.Gen Idealize.ShloMosaic Idealize.ShloMosaic.ValueIdx Cert.TreeLstm
open Cert.KernelIdeal.Tile

theorem hz2 : (![0, 0] : Fin 2 → Nat) = fun _ => 0 := funext fun a => by fin_cases a <;> rfl

/-- The parameters as the tile's twelve weight and bias blocks hold them. -/
def tileParams (Wi : Vec Ideal S512x512 .bf16) (bi : Vec Ideal S1x512 .f32) (Ui Wf : Vec Ideal S512x512 .bf16)
    (bf : Vec Ideal S1x512 .f32) (Uf Wo : Vec Ideal S512x512 .bf16) (bo : Vec Ideal S1x512 .f32)
    (Uo Wu : Vec Ideal S512x512 .bf16) (bu : Vec Ideal S1x512 .f32) (Uu : Vec Ideal S512x512 .bf16) : Params :=
  ⟨weights Wi, rowBias bi, weights Ui, weights Wf, rowBias bf, weights Uf, weights Wo, rowBias bo, weights Uo,
    weights Wu, rowBias bu, weights Uu⟩

/-- Child `n`'s slab of a block of eight children, row `p`. -/
theorem slab_row_of_block (x : Vec Ideal S8x256x512 .f32) (n : Fin 8)
    (inb : ∀ a, (![n.val, 0, 0] : Fin 3 → Nat) a + S1x256x512.size a ≤ S8x256x512.size a) (p : Fin 256) :
    slabRow (View.ld x (Rect.unit (s := S8x256x512) ![n.val, 0, 0] S1x256x512.size inb)) p = childRows x p n := by
  funext k
  exact congrArg x (funext fun a => Fin.ext (by
    match a with
    | ⟨0, _⟩ => show n.val + 1 * 0 = n.val; omega
    | ⟨1, _⟩ => show 0 + 1 * p.val = p.val; omega
    | ⟨2, _⟩ => show 0 + 1 * k.val = k.val; omega))

/-- Child `n`'s slab of a block of eight children, entry `(p, q)`. -/
theorem slab_at_of_block (x : Vec Ideal S8x256x512 .f32) (n : Fin 8)
    (inb : ∀ a, (![n.val, 0, 0] : Fin 3 → Nat) a + S1x256x512.size a ≤ S8x256x512.size a) (p : Fin 256) (q : Fin 512) :
    slabRow (View.ld x (Rect.unit (s := S8x256x512) ![n.val, 0, 0] S1x256x512.size inb)) p q = childAt x p q n :=
  congrFun (slab_row_of_block x n inb p) q

/-- The cell-state output tile after the body, entry `(p, q)`. -/
theorem out16_apply (x0 : Vec Ideal S256x512 .f32) (x1 x2 : Vec Ideal S8x256x512 .f32) (x3 : Vec Ideal S512x512 .bf16)
    (x4 : Vec Ideal S1x512 .f32) (x5 x6 : Vec Ideal S512x512 .bf16) (x7 : Vec Ideal S1x512 .f32)
    (x8 x9 : Vec Ideal S512x512 .bf16) (x10 : Vec Ideal S1x512 .f32) (x11 x12 : Vec Ideal S512x512 .bf16)
    (x13 : Vec Ideal S1x512 .f32) (x14 : Vec Ideal S512x512 .bf16) (p : Fin 256) (q : Fin 512) :
    out0_16 (F := Ideal) x0 x1 x2 x3 x4 x5 x6 x7 x8 x9 x10 x11 x12 x13 x14 (ix2 p q)
      = cell (tileParams x3 x4 x5 x6 x7 x8 x9 x10 x11 x12 x13 x14) (rowOf x0 p) (childRows x1 p) (childAt x2 p q) q := by
  unfold out0_16
  rw [View.canon_unit_zero hz2]
  simp only [View.ld_unit_zero (S := S256x512) hz2, View.ld_unit_zero (S := S512x512) hz2,
    View.ld_unit_zero (S := S1x512) hz2]
  exact cell_tile x0 (View.ld x1 r0_1) (View.ld x1 r0_2) (View.ld x1 r0_3) (View.ld x1 r0_4) (View.ld x1 r0_5) (View.ld x1 r0_6) (View.ld x1 r0_7) (View.ld x1 r0_8)
    (View.ld x2 r0_1) (View.ld x2 r0_2) (View.ld x2 r0_3) (View.ld x2 r0_4) (View.ld x2 r0_5) (View.ld x2 r0_6) (View.ld x2 r0_7) (View.ld x2 r0_8)
    x3 x4 x5 x6 x7 x8 x12 x13 x14 (tileParams x3 x4 x5 x6 x7 x8 x9 x10 x11 x12 x13 x14)
    rfl rfl rfl rfl rfl rfl rfl rfl rfl p q (childRows x1 p) (childAt x2 p q)
    (slab_row_of_block x1 0 inb_S8x256x512_S1x256x512_0_0_0 p)
    (slab_row_of_block x1 1 inb_S8x256x512_S1x256x512_1_0_0 p)
    (slab_row_of_block x1 2 inb_S8x256x512_S1x256x512_2_0_0 p)
    (slab_row_of_block x1 3 inb_S8x256x512_S1x256x512_3_0_0 p)
    (slab_row_of_block x1 4 inb_S8x256x512_S1x256x512_4_0_0 p)
    (slab_row_of_block x1 5 inb_S8x256x512_S1x256x512_5_0_0 p)
    (slab_row_of_block x1 6 inb_S8x256x512_S1x256x512_6_0_0 p)
    (slab_row_of_block x1 7 inb_S8x256x512_S1x256x512_7_0_0 p)
    (slab_at_of_block x2 0 inb_S8x256x512_S1x256x512_0_0_0 p q)
    (slab_at_of_block x2 1 inb_S8x256x512_S1x256x512_1_0_0 p q)
    (slab_at_of_block x2 2 inb_S8x256x512_S1x256x512_2_0_0 p q)
    (slab_at_of_block x2 3 inb_S8x256x512_S1x256x512_3_0_0 p q)
    (slab_at_of_block x2 4 inb_S8x256x512_S1x256x512_4_0_0 p q)
    (slab_at_of_block x2 5 inb_S8x256x512_S1x256x512_5_0_0 p q)
    (slab_at_of_block x2 6 inb_S8x256x512_S1x256x512_6_0_0 p q)
    (slab_at_of_block x2 7 inb_S8x256x512_S1x256x512_7_0_0 p q)

/-- The hidden-state output tile after the body, entry `(p, q)`. -/
theorem out15_apply (x0 : Vec Ideal S256x512 .f32) (x1 x2 : Vec Ideal S8x256x512 .f32) (x3 : Vec Ideal S512x512 .bf16)
    (x4 : Vec Ideal S1x512 .f32) (x5 x6 : Vec Ideal S512x512 .bf16) (x7 : Vec Ideal S1x512 .f32)
    (x8 x9 : Vec Ideal S512x512 .bf16) (x10 : Vec Ideal S1x512 .f32) (x11 x12 : Vec Ideal S512x512 .bf16)
    (x13 : Vec Ideal S1x512 .f32) (x14 : Vec Ideal S512x512 .bf16) (p : Fin 256) (q : Fin 512) :
    out0_15 (F := Ideal) x0 x1 x2 x3 x4 x5 x6 x7 x8 x9 x10 x11 x12 x13 x14 (ix2 p q)
      = TreeLstm.hidden (tileParams x3 x4 x5 x6 x7 x8 x9 x10 x11 x12 x13 x14) (rowOf x0 p) (childRows x1 p) (childAt x2 p q) q := by
  unfold out0_15
  rw [View.canon_unit_zero hz2]
  simp only [View.ld_unit_zero (S := S256x512) hz2, View.ld_unit_zero (S := S512x512) hz2,
    View.ld_unit_zero (S := S1x512) hz2]
  exact hidden_tile x0 (View.ld x1 r0_1) (View.ld x1 r0_2) (View.ld x1 r0_3) (View.ld x1 r0_4) (View.ld x1 r0_5) (View.ld x1 r0_6) (View.ld x1 r0_7) (View.ld x1 r0_8)
    (View.ld x2 r0_1) (View.ld x2 r0_2) (View.ld x2 r0_3) (View.ld x2 r0_4) (View.ld x2 r0_5) (View.ld x2 r0_6) (View.ld x2 r0_7) (View.ld x2 r0_8)
    x3 x4 x5 x6 x7 x8 x9 x10 x11 x12 x13 x14 (tileParams x3 x4 x5 x6 x7 x8 x9 x10 x11 x12 x13 x14)
    rfl rfl rfl rfl rfl rfl rfl rfl rfl rfl rfl rfl p q (childRows x1 p) (childAt x2 p q)
    (slab_row_of_block x1 0 inb_S8x256x512_S1x256x512_0_0_0 p)
    (slab_row_of_block x1 1 inb_S8x256x512_S1x256x512_1_0_0 p)
    (slab_row_of_block x1 2 inb_S8x256x512_S1x256x512_2_0_0 p)
    (slab_row_of_block x1 3 inb_S8x256x512_S1x256x512_3_0_0 p)
    (slab_row_of_block x1 4 inb_S8x256x512_S1x256x512_4_0_0 p)
    (slab_row_of_block x1 5 inb_S8x256x512_S1x256x512_5_0_0 p)
    (slab_row_of_block x1 6 inb_S8x256x512_S1x256x512_6_0_0 p)
    (slab_row_of_block x1 7 inb_S8x256x512_S1x256x512_7_0_0 p)
    (slab_at_of_block x2 0 inb_S8x256x512_S1x256x512_0_0_0 p q)
    (slab_at_of_block x2 1 inb_S8x256x512_S1x256x512_1_0_0 p q)
    (slab_at_of_block x2 2 inb_S8x256x512_S1x256x512_2_0_0 p q)
    (slab_at_of_block x2 3 inb_S8x256x512_S1x256x512_3_0_0 p q)
    (slab_at_of_block x2 4 inb_S8x256x512_S1x256x512_4_0_0 p q)
    (slab_at_of_block x2 5 inb_S8x256x512_S1x256x512_5_0_0 p q)
    (slab_at_of_block x2 6 inb_S8x256x512_S1x256x512_6_0_0 p q)
    (slab_at_of_block x2 7 inb_S8x256x512_S1x256x512_7_0_0 p q)

end Cert.KernelIdeal.Block

end
-- ==== Proof.KernelWhole.lean ====
/-
  From tiles to the whole arrays: after the kernel's run the two output arrays hold the cell's new hidden and cell
  states of every batch row.

  Grid point `t` writes back rows `256 t … 256 t + 255` of each output. Row `p` of what it writes is the cell for
  row `p` of its input tiles, that is for row `256 t + p` of the argument arrays, with the weights the arguments hold.
  The 32 blocks cover the 8192 rows, so each output array is the cell of the whole batch.
-/
import proofs.«137281_j22247930593470_2_alg».proof.Proof.Gen.KernelIdeal.Value
import proofs.«137281_j22247930593470_2_alg».proof.Proof.KernelReads
import proofs.«137281_j22247930593470_2_alg».proof.Proof.KernelBlock
import proofs.«137281_j22247930593470_2_alg».proof.Proof.Whole

noncomputable section

namespace Cert.KernelIdeal.Whole

open Cert.KernelIdeal Cert.KernelIdeal.Gen Idealize.ShloMosaic Idealize.ShloMosaic.ValueIdx Idealize.ShloMosaic.TcCoe
open Idealize.SL.Sem Cert.TreeLstm Cert.KernelIdeal.Reads
open Idealize.ShloMosaic.Pipeline (Dat)

variable (m : (ℓ : Loc nD τ sig) → Buf (Elt Ideal) ℓ) (ρ : Dev nD → PrngReg)

/-- The parameters the argument arrays hold. -/
def params (c : Dev nD) : Params :=
  paramsOf (m ((c : Thread nD τ).loc main_arg3) : S512x512.Idx → EReal)
    (m ((c : Thread nD τ).loc main_arg4) : S512.Idx → EReal)
    (m ((c : Thread nD τ).loc main_arg5) : S512x512.Idx → EReal)
    (m ((c : Thread nD τ).loc main_arg6) : S512x512.Idx → EReal)
    (m ((c : Thread nD τ).loc main_arg7) : S512.Idx → EReal)
    (m ((c : Thread nD τ).loc main_arg8) : S512x512.Idx → EReal)
    (m ((c : Thread nD τ).loc main_arg9) : S512x512.Idx → EReal)
    (m ((c : Thread nD τ).loc main_arg10) : S512.Idx → EReal)
    (m ((c : Thread nD τ).loc main_arg11) : S512x512.Idx → EReal)
    (m ((c : Thread nD τ).loc main_arg12) : S512x512.Idx → EReal)
    (m ((c : Thread nD τ).loc main_arg13) : S512.Idx → EReal)
    (m ((c : Thread nD τ).loc main_arg14) : S512x512.Idx → EReal)

/-- The new cell state of the whole batch, from the argument arrays. -/
def cellOut (c : Dev nD) : S8192x512.Idx → EReal :=
  cellArr (params m c) (m ((c : Thread nD τ).loc main_arg0) : S8192x512.Idx → EReal) (m ((c : Thread nD τ).loc main_arg1) : S8x8192x512.Idx → EReal) (m ((c : Thread nD τ).loc main_arg2) : S8x8192x512.Idx → EReal)

/-- The new hidden state of the whole batch, from the argument arrays. -/
def hiddenOut (c : Dev nD) : S8192x512.Idx → EReal :=
  hiddenArr (params m c) (m ((c : Thread nD τ).loc main_arg0) : S8192x512.Idx → EReal) (m ((c : Thread nD τ).loc main_arg1) : S8x8192x512.Idx → EReal) (m ((c : Thread nD τ).loc main_arg2) : S8x8192x512.Idx → EReal)

/-- Row `p` of tile `t` is batch row `256 t + p`. -/
def rowAt (t : Fin cfg0.N) (p : Fin 256) (ht : t.val < 32) : Fin 8192 := ⟨256 * t.val + p.val, by have := p.isLt; omega⟩

/-- The weight and bias blocks of any tile hold the arguments' parameters. -/
theorem tileParams_eq (c : Dev nD) (t : Fin cfg0.N) :
    Block.tileParams (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) = params m c := by
  have w3 : weights (iblk m c 3 t) = weights (m ((c : Thread nD τ).loc main_arg3) : S512x512.Idx → EReal) := funext fun j => funext fun k => iblk3_apply m c t j k
  have b4 : Tile.rowBias (iblk m c 4 t) = biasOf (m ((c : Thread nD τ).loc main_arg4) : S512.Idx → EReal) := funext fun j => iblk4_apply m c t j
  have w5 : weights (iblk m c 5 t) = weights (m ((c : Thread nD τ).loc main_arg5) : S512x512.Idx → EReal) := funext fun j => funext fun k => iblk5_apply m c t j k
  have w6 : weights (iblk m c 6 t) = weights (m ((c : Thread nD τ).loc main_arg6) : S512x512.Idx → EReal) := funext fun j => funext fun k => iblk6_apply m c t j k
  have b7 : Tile.rowBias (iblk m c 7 t) = biasOf (m ((c : Thread nD τ).loc main_arg7) : S512.Idx → EReal) := funext fun j => iblk7_apply m c t j
  have w8 : weights (iblk m c 8 t) = weights (m ((c : Thread nD τ).loc main_arg8) : S512x512.Idx → EReal) := funext fun j => funext fun k => iblk8_apply m c t j k
  have w9 : weights (iblk m c 9 t) = weights (m ((c : Thread nD τ).loc main_arg9) : S512x512.Idx → EReal) := funext fun j => funext fun k => iblk9_apply m c t j k
  have b10 : Tile.rowBias (iblk m c 10 t) = biasOf (m ((c : Thread nD τ).loc main_arg10) : S512.Idx → EReal) := funext fun j => iblk10_apply m c t j
  have w11 : weights (iblk m c 11 t) = weights (m ((c : Thread nD τ).loc main_arg11) : S512x512.Idx → EReal) := funext fun j => funext fun k => iblk11_apply m c t j k
  have w12 : weights (iblk m c 12 t) = weights (m ((c : Thread nD τ).loc main_arg12) : S512x512.Idx → EReal) := funext fun j => funext fun k => iblk12_apply m c t j k
  have b13 : Tile.rowBias (iblk m c 13 t) = biasOf (m ((c : Thread nD τ).loc main_arg13) : S512.Idx → EReal) := funext fun j => iblk13_apply m c t j
  have w14 : weights (iblk m c 14 t) = weights (m ((c : Thread nD τ).loc main_arg14) : S512x512.Idx → EReal) := funext fun j => funext fun k => iblk14_apply m c t j k
  unfold Block.tileParams params paramsOf
  rw [w3, b4, w5, w6, b7, w8, w9, b10, w11, w12, b13, w14]

/-- Row `p` of the input's tile `t`. -/
theorem rows_x (c : Dev nD) (t : Fin cfg0.N) (p : Fin 256) (ht : t.val < 32) :
    rowOf (iblk m c 0 t) p = rowOf (m ((c : Thread nD τ).loc main_arg0) : S8192x512.Idx → EReal) (rowAt t p ht) :=
  funext fun k => iblk0_apply m c t p k (rowAt t p ht) rfl

/-- Rows `p` of the children's hidden states' tile `t`. -/
theorem rows_h (c : Dev nD) (t : Fin cfg0.N) (p : Fin 256) (ht : t.val < 32) :
    childRows (iblk m c 1 t) p = childRows (m ((c : Thread nD τ).loc main_arg1) : S8x8192x512.Idx → EReal) (rowAt t p ht) :=
  funext fun n => funext fun k => iblk1_apply m c t n p k (rowAt t p ht) rfl

/-- Entries `(p, q)` of the children's cell states' tile `t`. -/
theorem at_c (c : Dev nD) (t : Fin cfg0.N) (p : Fin 256) (ht : t.val < 32) (q : Fin 512) :
    childAt (iblk m c 2 t) p q = childAt (m ((c : Thread nD τ).loc main_arg2) : S8x8192x512.Idx → EReal) (rowAt t p ht) q :=
  funext fun n => iblk2_apply m c t n p q (rowAt t p ht) rfl

/-- What point `t` writes back to the new cell state output is block `t` of the new cell state of the whole batch. -/
theorem flushed16_eq (c : Dev nD) (t : Fin cfg0.N) :
    (dats m 0 c).flushed 16 t = ((cfg0.win 16).blk t).view.read (Elt Ideal) (cellOut m c) := by
  rw [Cert.KernelIdeal.Value.flushed16]
  funext y
  obtain ⟨p, q, rfl⟩ : ∃ (p : Fin 256) (q : Fin 512), y = ix2 p q := ⟨y 0, y 1, eq_ix2 y⟩
  have hN : cfg0.N = 32 := N_0
  have ht : t.val < 32 := lt_of_lt_of_eq t.isLt hN
  obtain ⟨-, -, -, -, ⟨e0, e1⟩⟩ := idx_facts t
  have hemb : ((cfg0.win 16).blk t).view.emb (ix2 p q) = ix2 (rowAt t p ht) q :=
    funext fun a => Fin.ext (by
      match a with
      | ⟨0, _⟩ => show win0_16.index t (0 : Fin 2) * 256 + 1 * p.val = 256 * t.val + p.val; rw [e0]; omega
      | ⟨1, _⟩ => show win0_16.index t (1 : Fin 2) * 512 + 1 * q.val = q.val; rw [e1]; omega)
  rw [View.read_apply, hemb]
  refine (Block.out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [tileParams_eq m c t, rows_x m c t p ht, rows_h m c t p ht, at_c m c t p ht q]
  rfl

/-- What point `t` writes back to the new hidden state output is block `t` of the new hidden state of the whole batch. -/
theorem flushed15_eq (c : Dev nD) (t : Fin cfg0.N) :
    (dats m 0 c).flushed 15 t = ((cfg0.win 15).blk t).view.read (Elt Ideal) (hiddenOut m c) := by
  rw [Cert.KernelIdeal.Value.flushed15]
  funext y
  obtain ⟨p, q, rfl⟩ : ∃ (p : Fin 256) (q : Fin 512), y = ix2 p q := ⟨y 0, y 1, eq_ix2 y⟩
  have hN : cfg0.N = 32 := N_0
  have ht : t.val < 32 := lt_of_lt_of_eq t.isLt hN
  obtain ⟨-, -, -, ⟨e0, e1⟩, -⟩ := idx_facts t
  have hemb : ((cfg0.win 15).blk t).view.emb (ix2 p q) = ix2 (rowAt t p ht) q :=
    funext fun a => Fin.ext (by
      match a with
      | ⟨0, _⟩ => show win0_15.index t (0 : Fin 2) * 256 + 1 * p.val = 256 * t.val + p.val; rw [e0]; omega
      | ⟨1, _⟩ => show win0_15.index t (1 : Fin 2) * 512 + 1 * q.val = q.val; rw [e1]; omega)
  rw [View.read_apply, hemb]
  refine (Block.out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [tileParams_eq m c t, rows_x m c t p ht, rows_h m c t p ht, at_c m c t p ht q]
  rfl

theorem mem_blk16 (t : Fin cfg0.N) (i : S8192x512.Idx) :
    i ∈ ((cfg0.win 16).blk t).view.set ↔ ∀ a : Fin 2, win0_16.index t a * S256x512.size a ≤ (i a).val
      ∧ (i a).val < win0_16.index t a * S256x512.size a + S256x512.size a := by
  show i ∈ ((View.whole main_v12_1).slice (win0_16.rect t)).set ↔ _
  rw [View.set_slice_whole, Rect.mem_set_unit]
  exact Iff.rfl

/-- Every batch row lies in the block of the point `row / 256`. -/
theorem cover16 (i : S8192x512.Idx) :
    ∃ t : Fin cfg0.N, (cfg0.win 16).flush t = true ∧ i ∈ ((cfg0.win 16).blk t).view.set := by
  have hi0 : (i 0).val < 8192 := (i 0).isLt
  have hi1 : (i 1).val < 512 := (i 1).isLt
  have hN : cfg0.N = 32 := N_0
  have hlt : (i 0).val / 256 < cfg0.N := by rw [hN]; omega
  obtain ⟨-, -, -, -, ⟨e0, e1⟩⟩ := idx_facts ⟨(i 0).val / 256, hlt⟩
  refine ⟨⟨(i 0).val / 256, hlt⟩, flush0_16 _, ?_⟩
  rw [mem_blk16]
  intro a
  match a with
  | ⟨0, _⟩ =>
    show win0_16.index ⟨(i 0).val / 256, hlt⟩ (0 : Fin 2) * 256 ≤ (i 0).val
      ∧ (i 0).val < win0_16.index ⟨(i 0).val / 256, hlt⟩ (0 : Fin 2) * 256 + 256
    rw [e0]
    show (i 0).val / 256 * 256 ≤ (i 0).val ∧ (i 0).val < (i 0).val / 256 * 256 + 256
    omega
  | ⟨1, _⟩ =>
    show win0_16.index ⟨(i 0).val / 256, hlt⟩ (1 : Fin 2) * 512 ≤ (i 1).val
      ∧ (i 1).val < win0_16.index ⟨(i 0).val / 256, hlt⟩ (1 : Fin 2) * 512 + 512
    rw [e1]
    omega

theorem mem_blk15 (t : Fin cfg0.N) (i : S8192x512.Idx) :
    i ∈ ((cfg0.win 15).blk t).view.set ↔ ∀ a : Fin 2, win0_15.index t a * S256x512.size a ≤ (i a).val
      ∧ (i a).val < win0_15.index t a * S256x512.size a + S256x512.size a := by
  show i ∈ ((View.whole main_v12_0).slice (win0_15.rect t)).set ↔ _
  rw [View.set_slice_whole, Rect.mem_set_unit]
  exact Iff.rfl

/-- Every batch row lies in the block of the point `row / 256`. -/
theorem cover15 (i : S8192x512.Idx) :
    ∃ t : Fin cfg0.N, (cfg0.win 15).flush t = true ∧ i ∈ ((cfg0.win 15).blk t).view.set := by
  have hi0 : (i 0).val < 8192 := (i 0).isLt
  have hi1 : (i 1).val < 512 := (i 1).isLt
  have hN : cfg0.N = 32 := N_0
  have hlt : (i 0).val / 256 < cfg0.N := by rw [hN]; omega
  obtain ⟨-, -, -, ⟨e0, e1⟩, -⟩ := idx_facts ⟨(i 0).val / 256, hlt⟩
  refine ⟨⟨(i 0).val / 256, hlt⟩, flush0_15 _, ?_⟩
  rw [mem_blk15]
  intro a
  match a with
  | ⟨0, _⟩ =>
    show win0_15.index ⟨(i 0).val / 256, hlt⟩ (0 : Fin 2) * 256 ≤ (i 0).val
      ∧ (i 0).val < win0_15.index ⟨(i 0).val / 256, hlt⟩ (0 : Fin 2) * 256 + 256
    rw [e0]
    show (i 0).val / 256 * 256 ≤ (i 0).val ∧ (i 0).val < (i 0).val / 256 * 256 + 256
    omega
  | ⟨1, _⟩ =>
    show win0_15.index ⟨(i 0).val / 256, hlt⟩ (1 : Fin 2) * 512 ≤ (i 1).val
      ∧ (i 1).val < win0_15.index ⟨(i 0).val / 256, hlt⟩ (1 : Fin 2) * 512 + 512
    rw [e1]
    omega

/-- After the run the second output array is the new cell state of the whole batch. -/
theorem final16 (c : Dev nD) : (dats m 0 c).arrAt 16 cfg0.N = cellOut m c :=
  (dats m 0 c).arrAt_eq_of_cover 16 (cellOut m c) (fun t _ => flushed16_eq m c t) cover16

/-- After the run the first output array is the new hidden state of the whole batch. -/
theorem final15 (c : Dev nD) : (dats m 0 c).arrAt 15 cfg0.N = hiddenOut m c :=
  (dats m 0 c).arrAt_eq_of_cover 15 (hiddenOut m c) (fun t _ => flushed15_eq m c t) cover15

/-- The kernel's run: it terminates with the two results at the cell's new hidden and cell states, the arguments unchanged. -/
theorem run : θ_run defs (onTc (τ := τ) (main (F := Ideal))) ⟨m, fun _ => 0, ρ⟩ fun r => ∀ c : Dev nD,
      r.2.mem ((c : Thread nD τ).loc main_v12_0) = hiddenOut m c
      ∧ r.2.mem ((c : Thread nD τ).loc main_v12_1) = cellOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c), (h c).2.1.trans (final16 m c), (h c).2.2⟩)
    (Cert.KernelIdeal.Value.run_blocks m ρ)

end Cert.KernelIdeal.Whole

end
-- ==== Proof.LibIdealReal.lean ====
/-
  Real numbers inside the extended reals: the float pattern of one, the quotient of two reals by the
  extended-real division, and arrays of reals read as arrays of extended reals by coordinates.
-/
import Idealize.ShloMosaic.PureOps.Ideal.Laws
import Idealize.ShloMosaic.Lib.ValueIdx

noncomputable section

open Idealize.ShloMosaic Idealize.ShloMosaic.ValueIdx

namespace Cert.IdealReal

/-- The single-precision pattern `0x3F800000` is the number one. -/
theorem ofBits_one_f32 : Ideal.ofBits .f32 0x3F800000#32 = 1 := by
  simp [Ideal.ofBits, Ideal.ieee]
  have h : ((8388608 : ℝ) * ((2 : ℝ) ^ 23)⁻¹) = 1 := by norm_num
  exact_mod_cast h

/-- The extended-real quotient of two reals, the divisor not zero, is the real quotient. -/
theorem div_coe_coe {x y : ℝ} (h : y ≠ 0) : Ideal.div (x : EReal) (y : EReal) = ((x / y : ℝ) : EReal) := by
  rw [Ideal.div_coe h, ← EReal.coe_mul, mul_one_div]

/-- A matrix of reals as an array of extended reals. -/
def lift2 {n0 n1 : Nat} (f : Fin n0 → Fin n1 → ℝ) : (⟨2, ![n0, n1]⟩ : Shape).Idx → EReal :=
  fun i => ((f (i 0) (i 1) : ℝ) : EReal)

theorem lift2_ix2 {n0 n1 : Nat} (f : Fin n0 → Fin n1 → ℝ) (a : Fin n0) (b : Fin n1) :
    lift2 f (ix2 a b) = ((f a b : ℝ) : EReal) := rfl

/-- An array all of whose entries are given reals is the lifted matrix. -/
theorem eq_lift2 {n0 n1 : Nat} (v : (⟨2, ![n0, n1]⟩ : Shape).Idx → EReal) (f : Fin n0 → Fin n1 → ℝ)
    (h : ∀ a b, v (ix2 a b) = ((f a b : ℝ) : EReal)) : v = lift2 f := by
  funext i
  rw [eq_ix2 i]
  exact h _ _

end Cert.IdealReal

end
-- ==== Proof.RefValue.lean ====
/-
  The reference program's two results are the cell's new hidden and cell states, batch row by batch row.

  The reference multiplies by a transposed weight matrix, so entry `(r, j)` of `x · Wᵀ` is row `r` of `x` times row
  `j` of `W`; it adds the children up along the first axis starting from zero; it writes the logistic function as
  `1 / (1 + e^(-t))`; and it computes all eight forget gates at once on a `[8, 8192, 512]` array, whose entry
  `(n, r, j)` is child `n`'s gate for row `r`. Read entry by entry this is the specification term for term.
-/
import proofs.«137281_j22247930593470_2_alg».proof.Proof.Gen.ReferenceIdeal.Read
import proofs.«137281_j22247930593470_2_alg».proof.Proof.Whole
import proofs.«137281_j22247930593470_2_alg».proof.Proof.LibIdealReal
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
open Cert.TreeLstm

abbrev Mat := FVec Ideal S8192x512 .f32
abbrev Ten := FVec Ideal S8x8192x512 .f32
abbrev Wt := FVec Ideal S512x512 .f32
abbrev Bs := FVec Ideal S512 .f32

/-! ## The pieces, entry by entry -/

/-- The children added up along the first axis, from zero. -/
theorem childSum_apply (h : Ten) (r : Fin 8192) (k : Fin 512) :
    val_main_v0 (F := Ideal) h (ix2 r k) = childSum (childRows h r) k := by
  rw [val_main_v0_apply, val_main_cst_apply]
  show Ideal.ofBits .f32 0x00000000#32 + _ = _
  rw [Ideal.ofBits_zero_f32, zero_add]
  refine Finset.sum_congr rfl fun n _ => ?_
  exact congrArg h (funext fun a => Fin.ext (by match a with | ⟨0, _⟩ => rfl | ⟨1, _⟩ => rfl | ⟨2, _⟩ => rfl))

/-- A `[8192, 512]` array times a transposed weight matrix, at `(r, j)`. -/
theorem lin_apply (l : Mat) (W : Wt) (r : Fin 8192) (j : Fin 512) :
    val_main_v2 (F := Ideal) l W (ix2 r j) = dot (rowOf l r) (weights W j) := by
  rw [val_main_v2_apply]
  refine Finset.sum_congr rfl fun k _ => ?_
  rw [val_main_v1_apply]
  have e1 : lidx_main_v2 (ix2 r j) k = ix2 r k :=
    funext fun a => Fin.ext (by match a with | ⟨0, _⟩ => rfl | ⟨1, _⟩ => rfl)
  have e2 : idx_main_v1 (ridx_main_v2 (ix2 r j) k) = ix2 j k :=
    funext fun a => Fin.ext (by match a with | ⟨0, _⟩ => rfl | ⟨1, _⟩ => rfl)
  rw [e1, e2]
  rfl

/-- A bias vector spread down the rows, at `(r, j)`. -/
theorem bias_apply (b : Bs) (r : Fin 8192) (j : Fin 512) : val_main_v4 (F := Ideal) b (ix2 r j) = biasOf b j := by
  rw [val_main_v4_apply, val_main_v3_apply]
  exact congrArg b (funext fun a => Fin.ext (by match a with | ⟨0, _⟩ => rfl))

/-- The constant one spread over a `[8192, 512]` array. -/
theorem one_apply (i : S8192x512.Idx) : val_main_v11 (F := Ideal) i = 1 := by
  rw [val_main_v11_apply, val_main_cst_0_apply]
  exact Cert.IdealReal.ofBits_one_f32

/-- The constant one spread over a `[8, 8192, 512]` array. -/
theorem one3_apply (i : S8x8192x512.Idx) : val_main_v49 (F := Ideal) i = 1 := by
  rw [val_main_v49_apply, val_main_cst_4_apply]
  exact Cert.IdealReal.ofBits_one_f32

/-! ## The input, output and update gates -/

/-- What goes into a gate, as an array: `(x · Wᵀ + b) + (Σ children) · Uᵀ`. -/
def gateArr (x : Mat) (h : Ten) (W : Wt) (b : Bs) (U : Wt) : Mat :=
  addf (addf (val_main_v2 (F := Ideal) x W) (val_main_v4 (F := Ideal) b))
    (val_main_v2 (F := Ideal) (val_main_v0 (F := Ideal) h) U)

theorem gateArr_apply (x : Mat) (h : Ten) (W : Wt) (b : Bs) (U : Wt) (r : Fin 8192) (j : Fin 512) :
    gateArr x h W b U (ix2 r j) = gatePre (rowOf x r) (childRows h r) (weights W) (biasOf b) (weights U) j := by
  show (val_main_v2 (F := Ideal) x W (ix2 r j) + val_main_v4 (F := Ideal) b (ix2 r j))
    + val_main_v2 (F := Ideal) (val_main_v0 (F := Ideal) h) U (ix2 r j) = _
  rw [lin_apply, bias_apply, lin_apply]
  exact congrArg (fun u => (dot (rowOf x r) (weights W j) + biasOf b j) + dot u (weights U j))
    (funext fun k => childSum_apply h r k)

/-- The logistic function of an array as the reference spells it: `1 / (1 + e^(-z))`. -/
def sigArr (z : Mat) : Mat :=
  Host.divf (val_main_v11 (F := Ideal)) (addf (val_main_v11 (F := Ideal)) (Host.exp (Host.negf z)))

theorem sigArr_apply (z : Mat) (i : S8192x512.Idx) : sigArr z i = Ideal.logistic (z i) := by
  show Ideal.div (val_main_v11 (F := Ideal) i) (val_main_v11 (F := Ideal) i + Ideal.exp (-(z i))) = _
  rw [one_apply]
  rfl

/-! ## The forget gates, all eight children at once -/

/-- What goes into child `n`'s forget gate, at `(n, r, j)`. -/
theorem forgetPre_apply (x : Mat) (h : Ten) (Wf : Wt) (bf : Bs) (Uf : Wt) (n : Fin 8) (r : Fin 8192) (j : Fin 512) :
    val_main_v46 (F := Ideal) x h Wf bf Uf (ix3 n r j)
      = (dot (rowOf x r) (weights Wf j) + biasOf bf j) + dot (childRows h r n) (weights Uf j) := by
  rw [val_main_v46_apply, val_main_v45_apply, val_main_v43_apply, val_main_v44_apply]
  have e0 : idx_main_v43 (idx_main_v45 (ix3 n r j)) = ix2 r j :=
    funext fun a => Fin.ext (by match a with | ⟨0, _⟩ => rfl | ⟨1, _⟩ => rfl)
  rw [e0]
  show (val_main_v2 (F := Ideal) x Wf (ix2 r j) + val_main_v4 (F := Ideal) bf (ix2 r j)) + _ = _
  rw [lin_apply, bias_apply]
  refine congrArg (_ + ·) (Finset.sum_congr rfl fun k _ => ?_)
  have e1 : lidx_main_v44 (ix3 n r j) k = ix3 n r k :=
    funext fun a => Fin.ext (by match a with | ⟨0, _⟩ => rfl | ⟨1, _⟩ => rfl | ⟨2, _⟩ => rfl)
  have e2 : ridx_main_v44 (ix3 n r j) k = ix2 j k :=
    funext fun a => Fin.ext (by match a with | ⟨0, _⟩ => rfl | ⟨1, _⟩ => rfl)
  rw [e1, e2]
  rfl

/-- Child `n`'s forget gate, at `(n, r, j)`. -/
theorem forget_apply (x : Mat) (h : Ten) (Wf : Wt) (bf : Bs) (Uf : Wt) (n : Fin 8) (r : Fin 8192) (j : Fin 512) :
    val_main_v52 (F := Ideal) x h Wf bf Uf (ix3 n r j)
      = forgetGate (rowOf x r) (childRows h r) (weights Wf) (biasOf bf) (weights Uf) n j := by
  show Ideal.div (val_main_v49 (F := Ideal) (ix3 n r j))
    (val_main_v49 (F := Ideal) (ix3 n r j) + Ideal.exp (-(val_main_v46 (F := Ideal) x h Wf bf Uf (ix3 n r j)))) = _
  rw [one3_apply, forgetPre_apply]
  rfl

/-- The forget gates times the children's cell states, added up along the first axis from zero. -/
theorem forgetSum_apply (x : Mat) (h c : Ten) (Wf : Wt) (bf : Bs) (Uf : Wt) (r : Fin 8192) (j : Fin 512) :
    val_main_v55 (F := Ideal) x h c Wf bf Uf (ix2 r j)
      = ∑ n : Fin 8, forgetGate (rowOf x r) (childRows h r) (weights Wf) (biasOf bf) (weights Uf) n j * childAt c r j n := by
  rw [val_main_v55_apply, val_main_cst_6_apply]
  show Ideal.ofBits .f32 0x00000000#32 + _ = _
  rw [Ideal.ofBits_zero_f32, zero_add]
  refine Finset.sum_congr rfl fun n _ => ?_
  have e : idx_main_v55 (ix2 r j) n = ix3 n r j :=
    funext fun a => Fin.ext (by match a with | ⟨0, _⟩ => rfl | ⟨1, _⟩ => rfl | ⟨2, _⟩ => rfl)
  rw [e, val_main_v54_apply, forget_apply]
  rfl

/-! ## The two results -/

/-- The reference's second result is the new cell state. -/
theorem cell_eq (x : Mat) (h c : Ten) (Wi : Wt) (bi : Bs) (Ui Wf : Wt) (bf : Bs) (Uf Wu : Wt) (bu : Bs) (Uu : Wt)
    (P : Params) (hWi : P.Wi = weights Wi) (hbi : P.bi = biasOf bi) (hUi : P.Ui = weights Ui)
    (hWf : P.Wf = weights Wf) (hbf : P.bf = biasOf bf) (hUf : P.Uf = weights Uf)
    (hWu : P.Wu = weights Wu) (hbu : P.bu = biasOf bu) (hUu : P.Uu = weights Uu) :
    val_main_v56 (F := Ideal) x h c Wi bi Ui Wf bf Uf Wu bu Uu = cellArr P x h c := by
  funext i
  obtain ⟨r, j, rfl⟩ : ∃ (r : Fin 8192) (j : Fin 512), i = ix2 r j := ⟨i 0, i 1, eq_ix2 i⟩
  rw [cellArr_ix2]
  show sigArr (gateArr x h Wi bi Ui) (ix2 r j) * Ideal.tanh (gateArr x h Wu bu Uu (ix2 r j))
    + val_main_v55 (F := Ideal) x h c Wf bf Uf (ix2 r j) = _
  rw [sigArr_apply, gateArr_apply, gateArr_apply, forgetSum_apply]
  unfold cell
  rw [hWi, hbi, hUi, hWf, hbf, hUf, hWu, hbu, hUu]

/-- The reference's first result is the new hidden state. -/
theorem hidden_eq (x : Mat) (h c : Ten) (Wi : Wt) (bi : Bs) (Ui Wf : Wt) (bf : Bs) (Uf Wo : Wt) (bo : Bs) (Uo Wu : Wt) (bu : Bs)
    (Uu : Wt) (P : Params) (hWi : P.Wi = weights Wi) (hbi : P.bi = biasOf bi) (hUi : P.Ui = weights Ui)
    (hWf : P.Wf = weights Wf) (hbf : P.bf = biasOf bf) (hUf : P.Uf = weights Uf)
    (hWo : P.Wo = weights Wo) (hbo : P.bo = biasOf bo) (hUo : P.Uo = weights Uo)
    (hWu : P.Wu = weights Wu) (hbu : P.bu = biasOf bu) (hUu : P.Uu = weights Uu) :
    val_main_v58 (F := Ideal) x h c Wi bi Ui Wf bf Uf Wo bo Uo Wu bu Uu = hiddenArr P x h c := by
  funext i
  obtain ⟨r, j, rfl⟩ : ∃ (r : Fin 8192) (j : Fin 512), i = ix2 r j := ⟨i 0, i 1, eq_ix2 i⟩
  rw [hiddenArr_ix2]
  show sigArr (gateArr x h Wo bo Uo) (ix2 r j)
    * Ideal.tanh (val_main_v56 (F := Ideal) x h c Wi bi Ui Wf bf Uf Wu bu Uu (ix2 r j)) = _
  rw [sigArr_apply, gateArr_apply, cell_eq x h c Wi bi Ui Wf bf Uf Wu bu Uu P hWi hbi hUi hWf hbf hUf hWu hbu hUu, cellArr_ix2]
  unfold TreeLstm.hidden
  rw [hWo, hbo, hUo]

/-! ## The reference's run -/

section Run

open Idealize.SL.Sem

variable (m : (ℓ : Loc nD τ sig) → Buf (Elt Ideal) ℓ) (ρ : Dev nD → PrngReg)

/-- The parameters the reference's argument arrays hold. -/
def params (c : Dev nD) : Params :=
  paramsOf (m ((c.tc : Thread nD τ).loc main_arg3) : S512x512.Idx → EReal)
    (m ((c.tc : Thread nD τ).loc main_arg4) : S512.Idx → EReal)
    (m ((c.tc : Thread nD τ).loc main_arg5) : S512x512.Idx → EReal)
    (m ((c.tc : Thread nD τ).loc main_arg6) : S512x512.Idx → EReal)
    (m ((c.tc : Thread nD τ).loc main_arg7) : S512.Idx → EReal)
    (m ((c.tc : Thread nD τ).loc main_arg8) : S512x512.Idx → EReal)
    (m ((c.tc : Thread nD τ).loc main_arg9) : S512x512.Idx → EReal)
    (m ((c.tc : Thread nD τ).loc main_arg10) : S512.Idx → EReal)
    (m ((c.tc : Thread nD τ).loc main_arg11) : S512x512.Idx → EReal)
    (m ((c.tc : Thread nD τ).loc main_arg12) : S512x512.Idx → EReal)
    (m ((c.tc : Thread nD τ).loc main_arg13) : S512.Idx → EReal)
    (m ((c.tc : Thread nD τ).loc main_arg14) : S512x512.Idx → EReal)

/-- The reference's run: it terminates with its two results at the cell's new hidden and cell states of the whole batch,
    the arguments unchanged. -/
theorem run : θ_run defs (onTc (τ := τ) (main (F := Ideal))) ⟨m, fun _ => 0, ρ⟩ fun r => ∀ c : Dev nD,
      r.2.mem ((c.tc : Thread nD τ).loc main_v58) = hiddenArr (params m c) (m ((c.tc : Thread nD τ).loc main_arg0) : S8192x512.Idx → EReal) (m ((c.tc : Thread nD τ).loc main_arg1) : S8x8192x512.Idx → EReal) (m ((c.tc : Thread nD τ).loc main_arg2) : S8x8192x512.Idx → EReal)
      ∧ r.2.mem ((c.tc : Thread nD τ).loc main_v56) = cellArr (params m c) (m ((c.tc : Thread nD τ).loc main_arg0) : S8192x512.Idx → EReal) (m ((c.tc : Thread nD τ).loc main_arg1) : S8x8192x512.Idx → EReal) (m ((c.tc : Thread nD τ).loc main_arg2) : S8x8192x512.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    ⟨(h c).1.trans ((val_main_v58_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))).trans
        (hidden_eq _ _ _ _ _ _ _ _ _ _ _ _ _ _ _ (params m c) rfl rfl rfl rfl rfl rfl rfl rfl rfl rfl rfl rfl)),
      (h c).2.1.trans ((val_main_v56_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg13)) (m ((c.tc : Thread nD τ).loc main_arg14))).trans
        (cell_eq _ _ _ _ _ _ _ _ _ _ _ _ (params m c) rfl rfl rfl rfl rfl rfl rfl rfl rfl)),
      (h c).2.2⟩)
    (Cert.ReferenceIdeal.Value.run (F := Ideal) m ρ)

end Run

end Cert.ReferenceIdeal.RefValue

end
-- ==== Proof.lean ====
/-
  The kernel — a child-sum tree-LSTM cell computed tile by tile, 256 batch rows at a time, with its fifteen small matrix
  products and its gates fused in one body — against the reference, which computes the same cell on whole arrays.

  Over the extended reals both programs compute, for every batch row `r` and output feature `j`,

    i = σ ((x_r · W_i j + b_i j) + s_r · U_i j),   o, u likewise (u with tanh),   s_r = Σ_n h_(n, r),
    f_n = σ ((x_r · W_f j + b_f j) + h_(n, r) · U_f j),
    c' = i · u + Σ_n f_n · c_(n, r, j),            h' = o · tanh c'.

  The two programs differ in how they arrange this: the kernel adds the eight children one after the other and starts its
  running sums at zero, keeps each weight matrix with one row per output feature and contracts both operands along their
  last axis, uses the one-operation logistic function and rounds operands to a shorter float format on the way into each
  product (the identity on the extended reals); the reference sums along an axis, multiplies by transposed weights, spells
  the logistic function `1 / (1 + e^(-t))` and computes all forget gates at once. Every sum is a finite sum in a
  commutative monoid, so none of this changes a value, and no use is made of the inputs being finite.

  The three frames come with the kernel's and the reference's runs; the idealization rewrote nothing, so it is preserved
  trivially; the two runs end at the same two arrays (Proof/KernelWhole.lean, Proof/RefValue.lean).
-/
import proofs.«137281_j22247930593470_2_alg».proof.Defs
import proofs.«137281_j22247930593470_2_alg».proof.Proof.Gen.Kernel
import proofs.«137281_j22247930593470_2_alg».proof.Proof.Gen.Kernel.Frame
import proofs.«137281_j22247930593470_2_alg».proof.Proof.Gen.KernelIdeal
import proofs.«137281_j22247930593470_2_alg».proof.Proof.Gen.KernelIdeal.Frame
import proofs.«137281_j22247930593470_2_alg».proof.Proof.Gen.KernelIdeal.Value
import proofs.«137281_j22247930593470_2_alg».proof.Proof.Gen.ReferenceIdeal
import proofs.«137281_j22247930593470_2_alg».proof.Proof.Gen.ReferenceIdeal.Run
import proofs.«137281_j22247930593470_2_alg».proof.Proof.Gen.ReferenceIdeal.Read
import proofs.«137281_j22247930593470_2_alg».proof.Proof.Gen.Pre_finite_inputs
import proofs.«137281_j22247930593470_2_alg».proof.Proof.KernelWhole
import proofs.«137281_j22247930593470_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, the results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the fifteen arguments both runs end with the new hidden state and the new cell state of
    the whole batch in their two results. -/
theorem algebraic : Cert.algebraic_KernelIdeal_ReferenceIdeal := by
  intro m ρ m' ρ' _ hagree
  refine ⟨fun c => Cert.KernelIdeal.Whole.hiddenOut m c, fun c => Cert.KernelIdeal.Whole.cellOut m c,
    Cert.KernelIdeal.Whole.run m ρ, ?_⟩
  refine (θ_run Cert.ReferenceIdeal.defs _ _).mono (fun _ h c => ?_) (Cert.ReferenceIdeal.RefValue.run m' ρ')
  obtain ⟨a0, a1, a2, a3, a4, a5, a6, a7, a8, a9, a10, a11, a12, a13, a14⟩ := hagree c
  refine ⟨(h c).1.trans ?_, (h c).2.1.trans ?_, (h c).2.2⟩
  · unfold Cert.ReferenceIdeal.RefValue.params
    rw [a0, a1, a2, a3, a4, a5, a6, a7, a8, a9, a10, a11, a12, a13, a14]
    rfl
  · unfold Cert.ReferenceIdeal.RefValue.params
    rw [a0, a1, a2, a3, a4, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
